-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x100000x256 : Shape := ⟨3, ![1, 100000, 256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S1x100000x256 : S_.BroadcastsInDim S1x100000x256 (![] : Fin 0 → Fin S1x100000x256.rank)
  reducesTo_S1x100000x256_S_d0_1_2 : S1x100000x256.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S1x100000x256 .f32) (main_arg1 : FVec F S256x128 .f32) (main_arg2 : FVec F S128 .f32) (main_arg3 : FVec F S128x128 .f32) (main_arg4 : FVec F S128 .f32) : IVec S_ 1 :=
  let main_v0 : FVec F S1x100000x256 .f32 := Host.absf main_arg0
  let main_cst : FVec F S_ .f32 := constant S_ .f32 0x7F800000#32
  let main_v1 : FVec F S1x100000x256 .f32 := broadcastInDim S1x100000x256 ![] bcast_S_S1x100000x256 main_cst
  let main_v2 : IVec S1x100000x256 1 := cmpf .olt main_v0 main_v1
  let main_c : IVec S_ 1 := constantI S_ 1 1#1
  let main_v3 : IVec S_ 1 := (fun x v => Host.reduce IntOp.andi x v reducesTo_S1x100000x256_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S1x100000x256 : Shape := ⟨3, ![1, 100000, 256]⟩
abbrev S256x128 : Shape := ⟨2, ![256, 128]⟩
abbrev S128 : Shape := ⟨1, ![128]⟩
abbrev S128x128 : Shape := ⟨2, ![128, 128]⟩
abbrev S100000x256 : Shape := ⟨2, ![100000, 256]⟩
abbrev S1x128 : Shape := ⟨2, ![1, 128]⟩
abbrev S100000x128 : Shape := ⟨2, ![100000, 128]⟩
abbrev S2000x256 : Shape := ⟨2, ![2000, 256]⟩
abbrev S2000x128 : Shape := ⟨2, ![2000, 128]⟩
abbrev S1x100000x128 : Shape := ⟨3, ![1, 100000, 128]⟩

abbrev nBuf : Space → Nat
  | .hbm => 10
  | .vmem => 8
  | .smem => 0
  | _ => 0

abbrev bufTy : (tb : Table) → Fin (tcTables nBuf tb) → BufTy
  | .hbm, ⟨0, _⟩ => ⟨S1x100000x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S100000x256, .f32⟩
  | .hbm, ⟨6, _⟩ => ⟨S1x128, .f32⟩
  | .hbm, ⟨7, _⟩ => ⟨S1x128, .f32⟩
  | .hbm, ⟨8, _⟩ => ⟨S100000x128, .f32⟩
  | .hbm, ⟨9, _⟩ => ⟨S1x100000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | _, _ => ⟨S1x100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x100000x256_S100000x256 : S1x100000x256.ShapeCasts S100000x256
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  shapeCasts_S100000x128_S1x100000x128 : S100000x128.ShapeCasts S1x100000x128
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x100000x256 : Shape := ⟨3, ![1, 100000, 256]⟩
abbrev S256x128 : Shape := ⟨2, ![256, 128]⟩
abbrev S128 : Shape := ⟨1, ![128]⟩
abbrev S128x128 : Shape := ⟨2, ![128, 128]⟩
abbrev S1x100000x128 : Shape := ⟨3, ![1, 100000, 128]⟩
abbrev S100000 : Shape := ⟨1, ![100000]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S1x100000x1 : Shape := ⟨3, ![1, 100000, 1]⟩
abbrev S100000x128 : Shape := ⟨2, ![100000, 128]⟩
abbrev S1x1x128 : Shape := ⟨3, ![1, 1, 128]⟩

abbrev nBuf : Space → Nat
  | .hbm => 156
  | .vmem => 0
  | .smem => 0
  | _ => 0

abbrev hbmTy0_0 (i : Nat) : BufTy := match i % 128 with
  | 0 => ⟨S1x100000x256, .f32⟩
  | 1 => ⟨S256x128, .f32⟩
  | 2 => ⟨S128, .f32⟩
  | 3 => ⟨S128x128, .f32⟩
  | 4 => ⟨S128, .f32⟩
  | 5 => ⟨S1x100000x128, .f32⟩
  | 6 => ⟨S100000, .i32⟩
  | 7 => ⟨S100000, .i32⟩
  | 8 => ⟨S_, .f32⟩
  | 9 => ⟨S100000, .f32⟩
  | 10 => ⟨S_, .f32⟩
  | 11 => ⟨S100000, .f32⟩
  | 12 => ⟨S100000x1, .i32⟩
  | 13 => ⟨S100000, .f32⟩
  | 14 => ⟨S_, .f32⟩
  | 15 => ⟨S100000, .f32⟩
  | 16 => ⟨S100000, .i1⟩
  | 17 => ⟨S100000, .f32⟩
  | 18 => ⟨S_, .f32⟩
  | 19 => ⟨S100000, .f32⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S100000, .f32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000, .f32⟩
  | 43 => ⟨S100000, .f32⟩
  | 44 => ⟨S_, .i32⟩
  | 45 => ⟨S100000, .i32⟩
  | 46 => ⟨S100000, .i1⟩
  | 47 => ⟨S_, .i32⟩
  | 48 => ⟨S100000, .i32⟩
  | 49 => ⟨S100000, .i32⟩
  | 50 => ⟨S100000, .i32⟩
  | 51 => ⟨S100000x1, .i32⟩
  | 52 => ⟨S1, .i32⟩
  | 53 => ⟨S_, .i32⟩
  | 54 => ⟨S100000x1, .i32⟩
  | 55 => ⟨S100000x1, .i1⟩
  | 56 => ⟨S1x1, .i32⟩
  | 57 => ⟨S100000x1, .i32⟩
  | 58 => ⟨S100000x1, .i1⟩
  | 59 => ⟨S100000x1, .i1⟩
  | 60 => ⟨S_, .i1⟩
  | 61 => ⟨S100000, .i1⟩
  | 62 => ⟨S1x100000x128, .f32⟩
  | 63 => ⟨S1x100000x128, .i1⟩
  | 64 => ⟨S_, .f32⟩
  | 65 => ⟨S1x100000x128, .f32⟩
  | 66 => ⟨S1x100000x128, .f32⟩
  | 67 => ⟨S1x100000x1, .f32⟩
  | 68 => ⟨S1x100000x128, .f32⟩
  | 69 => ⟨S1x100000x128, .f32⟩
  | 70 => ⟨S100000x128, .f32⟩
  | 71 => ⟨S_, .f32⟩
  | 72 => ⟨S100000x128, .f32⟩
  | 73 => ⟨S100000x1, .i32⟩
  | 74 => ⟨S100000x128, .f32⟩
  | 75 => ⟨S1x100000x128, .f32⟩
  | 76 => ⟨S1x1x128, .f32⟩
  | 77 => ⟨S1x100000x128, .f32⟩
  | 78 => ⟨S1x100000x128, .f32⟩
  | 79 => ⟨S_, .f32⟩
  | 80 => ⟨S1x100000x128, .f32⟩
  | 81 => ⟨S1x100000x128, .f32⟩
  | 82 => ⟨S1x100000x128, .f32⟩
  | 83 => ⟨S100000, .i32⟩
  | 84 => ⟨S100000, .i32⟩
  | 85 => ⟨S_, .f32⟩
  | 86 => ⟨S100000, .f32⟩
  | 87 => ⟨S_, .f32⟩
  | 88 => ⟨S100000, .f32⟩
  | 89 => ⟨S100000x1, .i32⟩
  | 90 => ⟨S100000, .f32⟩
  | 91 => ⟨S_, .f32⟩
  | 92 => ⟨S100000, .f32⟩
  | 93 => ⟨S100000, .i1⟩
  | 94 => ⟨S100000, .f32⟩
  | 95 => ⟨S_, .f32⟩
  | 96 => ⟨S100000, .f32⟩
  | 97 => ⟨S100000, .f32⟩
  | 98 => ⟨S_, .f32⟩
  | 99 => ⟨S_, .f32⟩
  | 100 => ⟨S100000, .f32⟩
  | 101 => ⟨S100000, .f32⟩
  | 102 => ⟨S_, .i32⟩
  | 103 => ⟨S100000, .i32⟩
  | 104 => ⟨S100000, .i1⟩
  | 105 => ⟨S_, .i32⟩
  | 106 => ⟨S100000, .i32⟩
  | 107 => ⟨S100000, .i32⟩
  | 108 => ⟨S100000, .i32⟩
  | 109 => ⟨S100000x1, .i32⟩
  | 110 => ⟨S100000, .f32⟩
  | 111 => ⟨S_, .i32⟩
  | 112 => ⟨S100000, .i32⟩
  | 113 => ⟨S100000, .i1⟩
  | 114 => ⟨S_, .i32⟩
  | 115 => ⟨S100000, .i32⟩
  | 116 => ⟨S100000, .i32⟩
  | 117 => ⟨S100000, .i32⟩
  | 118 => ⟨S100000x1, .i32⟩
  | 119 => ⟨S100000, .f32⟩
  | 120 => ⟨S100000, .f32⟩
  | 121 => ⟨S_, .i32⟩
  | 122 => ⟨S100000, .i32⟩
  | 123 => ⟨S100000, .i1⟩
  | 124 => ⟨S_, .i32⟩
  | 125 => ⟨S100000, .i32⟩
  | 126 => ⟨S100000, .i32⟩
  | 127 => ⟨S100000, .i32⟩
  | _ => ⟨S1x100000x256, .f32⟩

abbrev hbmTy0_1 (i : Nat) : BufTy := match i % 128 with
  | 0 => ⟨S100000x1, .i32⟩
  | 1 => ⟨S1, .i32⟩
  | 2 => ⟨S_, .i32⟩
  | 3 => ⟨S100000x1, .i32⟩
  | 4 => ⟨S100000x1, .i1⟩
  | 5 => ⟨S1x1, .i32⟩
  | 6 => ⟨S100000x1, .i32⟩
  | 7 => ⟨S100000x1, .i1⟩
  | 8 => ⟨S100000x1, .i1⟩
  | 9 => ⟨S_, .i1⟩
  | 10 => ⟨S100000, .i1⟩
  | 11 => ⟨S1x100000x128, .f32⟩
  | 12 => ⟨S1x100000x128, .i1⟩
  | 13 => ⟨S_, .f32⟩
  | 14 => ⟨S1x100000x128, .f32⟩
  | 15 => ⟨S1x100000x128, .f32⟩
  | 16 => ⟨S1x100000x1, .f32⟩
  | 17 => ⟨S1x100000x128, .f32⟩
  | 18 => ⟨S1x100000x128, .f32⟩
  | 19 => ⟨S100000x128, .f32⟩
  | 20 => ⟨S_, .f32⟩
  | 21 => ⟨S100000x128, .f32⟩
  | 22 => ⟨S100000x1, .i32⟩
  | 23 => ⟨S100000x128, .f32⟩
  | 24 => ⟨S1x100000x128, .f32⟩
  | 25 => ⟨S1x1x128, .f32⟩
  | 26 => ⟨S1x100000x128, .f32⟩
  | 27 => ⟨S1x100000x128, .f32⟩
  | _ => ⟨S1x100000x256, .f32⟩

abbrev hbmTy (i : Nat) : BufTy := match i / 128 with
  | 0 => hbmTy0_0 i
  | 1 => hbmTy0_1 i
  | _ => ⟨S1x100000x256, .f32⟩

abbrev bufTy : (tb : Table) → Fin (tcTables nBuf tb) → BufTy
  | .hbm, ⟨i, _⟩ => hbmTy i
  | _, _ => ⟨S1x100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_7 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_call2_cst : Ref sig .tc := ⟨.hbm, 79, rfl⟩
abbrev main_call2_v0 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_8 : Ref sig .tc := ⟨.hbm, 85, rfl⟩
abbrev main_v44 : Ref sig .tc := ⟨.hbm, 86, rfl⟩
abbrev main_cst_9 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_cst_10 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_11 : Ref sig .tc := ⟨.hbm, 95, rfl⟩
abbrev main_v51 : Ref sig .tc := ⟨.hbm, 96, rfl⟩
abbrev main_v52 : Ref sig .tc := ⟨.hbm, 97, rfl⟩
abbrev main_cst_12 : Ref sig .tc := ⟨.hbm, 98, rfl⟩
abbrev main_call3_v0 : Ref sig .tc := ⟨.hbm, 99, rfl⟩
abbrev main_call3_v1 : Ref sig .tc := ⟨.hbm, 100, rfl⟩
abbrev main_v53 : Ref sig .tc := ⟨.hbm, 101, rfl⟩
abbrev main_c_13 : Ref sig .tc := ⟨.hbm, 102, rfl⟩
abbrev main_v54 : Ref sig .tc := ⟨.hbm, 103, rfl⟩
abbrev main_v55 : Ref sig .tc := ⟨.hbm, 104, rfl⟩
abbrev main_c_14 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_c_15 : Ref sig .tc := ⟨.hbm, 111, rfl⟩
abbrev main_v61 : Ref sig .tc := ⟨.hbm, 112, rfl⟩
abbrev main_v62 : Ref sig .tc := ⟨.hbm, 113, rfl⟩
abbrev main_c_16 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_call4_c : Ref sig .tc := ⟨.hbm, 121, rfl⟩
abbrev main_call4_v0 : Ref sig .tc := ⟨.hbm, 122, rfl⟩
abbrev main_call4_v1 : Ref sig .tc := ⟨.hbm, 123, rfl⟩
abbrev main_call4_c_0 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_v5 : Ref sig .tc := ⟨.hbm, 128, rfl⟩
abbrev main_call4_c_1 : Ref sig .tc := ⟨.hbm, 129, rfl⟩
abbrev main_call4_c_2 : Ref sig .tc := ⟨.hbm, 130, rfl⟩
abbrev main_call4_v6 : Ref sig .tc := ⟨.hbm, 131, rfl⟩
abbrev main_call4_v7 : Ref sig .tc := ⟨.hbm, 132, rfl⟩
abbrev main_call4_v8 : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_c_3 : Ref sig .tc := ⟨.hbm, 137, rfl⟩
abbrev main_call4_v12 : Ref sig .tc := ⟨.hbm, 138, rfl⟩
abbrev main_call4_v13 : Ref sig .tc := ⟨.hbm, 139, rfl⟩
abbrev main_call4_v14 : Ref sig .tc := ⟨.hbm, 140, rfl⟩
abbrev main_call4_cst : Ref sig .tc := ⟨.hbm, 141, rfl⟩
abbrev main_call4_v15 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_cst_17 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S1x100000x128_1 : S100000.BroadcastsInDim S1x100000x128 (![1] : Fin 1 → Fin S1x100000x128.rank)
  bcast_S_S1x100000x128 : S_.BroadcastsInDim S1x100000x128 (![] : Fin 0 → Fin S1x100000x128.rank)
  bcast_S100000_S1x100000x1_1 : S100000.BroadcastsInDim S1x100000x1 (![1] : Fin 1 → Fin S1x100000x1.rank)
  bcast_S1x100000x1_S1x100000x128_0_1_2 : S1x100000x1.BroadcastsInDim S1x100000x128 (![0, 1, 2] : Fin 3 → Fin S1x100000x128.rank)
  shapeCasts_S1x100000x128_S100000x128 : S1x100000x128.ShapeCasts S100000x128
  bcast_S_S100000x128 : S_.BroadcastsInDim S100000x128 (![] : Fin 0 → Fin S100000x128.rank)
  bcast_S100000x128_S1x100000x128_1_2 : S100000x128.BroadcastsInDim S1x100000x128 (![1, 2] : Fin 2 → Fin S1x100000x128.rank)
  bcast_S128_S1x1x128_2 : S128.BroadcastsInDim S1x1x128 (![2] : Fin 1 → Fin S1x1x128.rank)
  bcast_S1x1x128_S1x100000x128_0_1_2 : S1x1x128.BroadcastsInDim S1x100000x128 (![0, 1, 2] : Fin 3 → Fin S1x100000x128.rank)
  dot_S1x100000x256_S256x128_S1x100000x128_2_0_01_1_n_n_wf : DotDims.WF S1x100000x256 S256x128 S1x100000x128 [2] [0] [0, 1] [1] [] []
  scatter_S100000_S100000x1_S100000_n_0_0_1_wf : ScatterDims.WF S100000 S100000x1 S100000 [] [0] [0] 1
  gather_S100000_S100000x1_S100000_n_0_n_n_0_1_1_wf : GatherDims.WF S100000 S100000x1 S100000 [] [0] [] [0] [] 1 ![1]
  gather_S1x100000x128_S100000x1_S1x100000x128_02_1_n_n_1_1_11128_wf : GatherDims.WF S1x100000x128 S100000x1 S1x100000x128 [0, 2] [1] [] [1] [] 1 ![1, 1, 128]
  scatter_S100000x128_S100000x1_S100000x128_1_0_0_1_wf : ScatterDims.WF S100000x128 S100000x1 S100000x128 [1] [0] [0] 1
  dot_S1x100000x128_S128x128_S1x100000x128_2_0_01_1_n_n_wf : DotDims.WF S1x100000x128 S128x128 S1x100000x128 [2] [0] [0, 1] [1] [] []

variable [Facts₀]

def dot_S1x100000x256_S256x128_S1x100000x128_2_0_01_1_n_n : DotDims S1x100000x256 S256x128 S1x100000x128 where
  lhsContracting := [2]
  rhsContracting := [0]
  lhsNonContracting := [0, 1]
  rhsNonContracting := [1]
  lhsBatch := []
  rhsBatch := []
  wf := dot_S1x100000x256_S256x128_S1x100000x128_2_0_01_1_n_n_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S100000_S100000x1_S100000_n_0_n_n_0_1_1 : GatherDims S100000 S100000x1 S100000 where
  offsetDims := []
  collapsedSliceDims := [0]
  operandBatchingDims := []
  startIndicesBatchingDims := []
  startIndexMap := [0]
  indexVectorDim := 1
  sliceSizes := ![1]
  wf := gather_S100000_S100000x1_S100000_n_0_n_n_0_1_1_wf
def gather_S1x100000x128_S100000x1_S1x100000x128_02_1_n_n_1_1_11128 : GatherDims S1x100000x128 S100000x1 S1x100000x128 where
  offsetDims := [0, 2]
  collapsedSliceDims := [1]
  operandBatchingDims := []
  startIndicesBatchingDims := []
  startIndexMap := [1]
  indexVectorDim := 1
  sliceSizes := ![1, 1, 128]
  wf := gather_S1x100000x128_S100000x1_S1x100000x128_02_1_n_n_1_1_11128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def dot_S1x100000x128_S128x128_S1x100000x128_2_0_01_1_n_n : DotDims S1x100000x128 S128x128 S1x100000x128 where
  lhsContracting := [2]
  rhsContracting := [0]
  lhsNonContracting := [0, 1]
  rhsNonContracting := [1]
  lhsBatch := []
  rhsBatch := []
  wf := dot_S1x100000x128_S128x128_S1x100000x128_2_0_01_1_n_n_wf

class Facts : Prop extends Facts₀ where

variable [Facts]
-- ==== Proof.TwoLayerSpec.lean ====
/-
  Two dense layers applied to every row of a table.

  The input is a stack of one table of 100000 rows and 256 columns. Each row is sent through an affine map into 128
  columns (a 256 × 128 matrix and a bias of length 128), every entry is replaced by its maximum with zero, and the
  result is sent through a second affine map (a 128 × 128 matrix and a bias of length 128). Row n of the output depends
  on row n of the input and on nothing else of it. Everything is over the extended reals; the zero the maximum is taken
  with is kept as the 32-bit word it is written as.
-/
import Idealize.ShloMosaic.Lib.ValueIdx
import Idealize.ShloMosaic.PureOps.Ideal

noncomputable section

open scoped BigOperators

namespace Cert.TwoLayer

open Idealize.ShloMosaic Idealize.ShloMosaic.ValueIdx

/-- One affine map at a column: the inner product of a row of length K with column k of a K × C matrix, plus entry k
    of the bias. -/
def affineAt {K C : Nat} (row : Fin K → EReal) (W : FVec Ideal ⟨2, ![K, C]⟩ .f32) (b : FVec Ideal ⟨1, ![C]⟩ .f32)
    (k : Fin C) : EReal :=
  (∑ d : Fin K, row d * W (ix2 d k)) + b (ix1 k)

/-- The hidden layer at row n, column k: the first affine map of input row n, cut off below at zero. -/
def hiddenAt (x : FVec Ideal ⟨3, ![1, 100000, 256]⟩ .f32) (W1 : FVec Ideal ⟨2, ![256, 128]⟩ .f32)
    (b1 : FVec Ideal ⟨1, ![128]⟩ .f32) (n : Fin 100000) (k : Fin 128) : EReal :=
  max (affineAt (fun d => x (ix3 (0 : Fin 1) n d)) W1 b1 k) (Ideal.ofBits .f32 0x00000000#32)

/-- The output at row n, column q: the second affine map of hidden row n. -/
def outAt (x : FVec Ideal ⟨3, ![1, 100000, 256]⟩ .f32) (W1 : FVec Ideal ⟨2, ![256, 128]⟩ .f32)
    (b1 : FVec Ideal ⟨1, ![128]⟩ .f32) (W2 : FVec Ideal ⟨2, ![128, 128]⟩ .f32) (b2 : FVec Ideal ⟨1, ![128]⟩ .f32)
    (n : Fin 100000) (q : Fin 128) : EReal :=
  affineAt (fun k => hiddenAt x W1 b1 n k) W2 b2 q

/-- The whole output array, a stack of one 100000 × 128 table. -/
def out (x : FVec Ideal ⟨3, ![1, 100000, 256]⟩ .f32) (W1 : FVec Ideal ⟨2, ![256, 128]⟩ .f32)
    (b1 : FVec Ideal ⟨1, ![128]⟩ .f32) (W2 : FVec Ideal ⟨2, ![128, 128]⟩ .f32) (b2 : FVec Ideal ⟨1, ![128]⟩ .f32) :
    FVec Ideal ⟨3, ![1, 100000, 128]⟩ .f32 :=
  fun i => outAt x W1 b1 W2 b2 (i 1) (i 2)

/-- The output read at coordinates. -/
theorem out_ix3 (x : FVec Ideal ⟨3, ![1, 100000, 256]⟩ .f32) (W1 : FVec Ideal ⟨2, ![256, 128]⟩ .f32)
    (b1 : FVec Ideal ⟨1, ![128]⟩ .f32) (W2 : FVec Ideal ⟨2, ![128, 128]⟩ .f32) (b2 : FVec Ideal ⟨1, ![128]⟩ .f32)
    (a : Fin 1) (n : Fin 100000) (q : Fin 128) :
    out x W1 b1 W2 b2 (ix3 a n q) = outAt x W1 b1 W2 b2 n q := rfl

end Cert.TwoLayer

end
-- ==== Proof.KernelPayload.lean ====
/-
  The arithmetic of one block, entry by entry.

  A block of 2000 rows is sent through two dense layers. Entry (p, q) of what is stored is
    sum over k of  max (sum over d of x(p,d) * W1(d,k) + b1(0,k), 0) * W2(k,q)   +   b2(0,q)
  where x is the block of rows, W1 and W2 the two matrices, and b1, b2 the two bias rows, each kept as a table of one
  row. The two matrix products start from the zero accumulator, which adds nothing; the bias rows are repeated down
  the 2000 rows; the casts to the same shape change nothing.
-/
import proofs.«141814_g14336600834353_cont_week2b_369_2_alg».proof.Proof.Gen.KernelIdeal.Skeleton
import proofs.«141814_g14336600834353_cont_week2b_369_2_alg».proof.Proof.TwoLayerSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Idealize.ShloMosaic Idealize.ShloMosaic.ValueIdx

/-! ## The first product: rows of length 256 against a 256 × 128 matrix -/

theorem lhsA_0 (i : S2000x128.Idx) (r : dot_S2000x256_S256x128_S2000x128_1_0_0_1_n_n.contr.Idx) :
    (dot_S2000x256_S256x128_S2000x128_1_0_0_1_n_n.lhsIdx i r 0).val = (i 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl

theorem lhsA_1 (i : S2000x128.Idx) (r : dot_S2000x256_S256x128_S2000x128_1_0_0_1_n_n.contr.Idx) :
    (dot_S2000x256_S256x128_S2000x128_1_0_0_1_n_n.lhsIdx i r 1).val = (r ⟨0, by decide⟩).val :=
  dot_S2000x256_S256x128_S2000x128_1_0_0_1_n_n.lhsIdx_val_of_single rfl i r

theorem rhsA_0 (i : S2000x128.Idx) (r : dot_S2000x256_S256x128_S2000x128_1_0_0_1_n_n.contr.Idx) :
    (dot_S2000x256_S256x128_S2000x128_1_0_0_1_n_n.rhsIdx i r 0).val = (r ⟨0, by decide⟩).val :=
  dot_S2000x256_S256x128_S2000x128_1_0_0_1_n_n.rhsIdx_val_of_single rfl i r

theorem rhsA_1 (i : S2000x128.Idx) (r : dot_S2000x256_S256x128_S2000x128_1_0_0_1_n_n.contr.Idx) :
    (dot_S2000x256_S256x128_S2000x128_1_0_0_1_n_n.rhsIdx i r 1).val = (i 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-- Entry (p, k) of the first product into the zero accumulator: row p of the left factor against column k of the
    right one. -/
theorem productA_apply (A : FVec Ideal S2000x256 .f32) (B : FVec Ideal S256x128 .f32) (p : Fin 2000) (k : Fin 128) :
    matmul dot_S2000x256_S256x128_S2000x128_1_0_0_1_n_n none A B (constant (F := Ideal) S2000x128 .f32 0x00000000#32) (ix2 p k)
      = ∑ d : Fin 256, A (ix2 p d) * B (ix2 d k) := by
  show FloatOps.matmul dot_S2000x256_S256x128_S2000x128_1_0_0_1_n_n none A B _ (ix2 p k) = _
  rw [Ideal.matmul_constant_zero_apply,
    ← Equiv.sum_comp (contrEquiv1 dot_S2000x256_S256x128_S2000x128_1_0_0_1_n_n 256 rfl rfl).symm]
  refine Finset.sum_congr rfl fun d _ => ?_
  have hd := contrEquiv1_symm_val dot_S2000x256_S256x128_S2000x128_1_0_0_1_n_n 256 rfl rfl d
  have el : dot_S2000x256_S256x128_S2000x128_1_0_0_1_n_n.lhsIdx (ix2 p k)
      ((contrEquiv1 dot_S2000x256_S256x128_S2000x128_1_0_0_1_n_n 256 rfl rfl).symm d) = ix2 p d :=
    funext fun a => Fin.ext (by
      match a with
      | ⟨0, _⟩ => exact lhsA_0 _ _
      | ⟨1, _⟩ => exact (lhsA_1 _ _).trans hd)
  have er : dot_S2000x256_S256x128_S2000x128_1_0_0_1_n_n.rhsIdx (ix2 p k)
      ((contrEquiv1 dot_S2000x256_S256x128_S2000x128_1_0_0_1_n_n 256 rfl rfl).symm d) = ix2 d k :=
    funext fun a => Fin.ext (by
      match a with
      | ⟨0, _⟩ => exact (rhsA_0 _ _).trans hd
      | ⟨1, _⟩ => exact rhsA_1 _ _)
  rw [el, er]

/-! ## The second product: rows of length 128 against a 128 × 128 matrix -/

theorem lhsB_0 (i : S2000x128.Idx) (r : dot_S2000x128_S128x128_S2000x128_1_0_0_1_n_n.contr.Idx) :
    (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhsB_1 (i : S2000x128.Idx) (r : dot_S2000x128_S128x128_S2000x128_1_0_0_1_n_n.contr.Idx) :
    (dot_S2000x128_S128x128_S2000x128_1_0_0_1_n_n.lhsIdx i r 1).val = (r ⟨0, by decide⟩).val :=
  dot_S2000x128_S128x128_S2000x128_1_0_0_1_n_n.lhsIdx_val_of_single rfl i r

theorem rhsB_0 (i : S2000x128.Idx) (r : dot_S2000x128_S128x128_S2000x128_1_0_0_1_n_n.contr.Idx) :
    (dot_S2000x128_S128x128_S2000x128_1_0_0_1_n_n.rhsIdx i r 0).val = (r ⟨0, by decide⟩).val :=
  dot_S2000x128_S128x128_S2000x128_1_0_0_1_n_n.rhsIdx_val_of_single rfl i r

theorem rhsB_1 (i : S2000x128.Idx) (r : dot_S2000x128_S128x128_S2000x128_1_0_0_1_n_n.contr.Idx) :
    (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Entry (p, q) of the second product into the zero accumulator. -/
theorem productB_apply (A : FVec Ideal S2000x128 .f32) (B : FVec Ideal S128x128 .f32) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  show FloatOps.matmul dot_S2000x128_S128x128_S2000x128_1_0_0_1_n_n none A B _ (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhsB_0 _ _
      | ⟨1, _⟩ => exact (lhsB_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhsB_0 _ _).trans hk
      | ⟨1, _⟩ => exact rhsB_1 _ _)
  rw [el, er]

/-! ## The whole payload at an entry -/

/-- Entry (p, q) of what the body stores, from the five blocks it loads. -/
theorem payload_apply (x : Vec Ideal S2000x256 .f32) (W1 : Vec Ideal S256x128 .f32) (b1 : Vec Ideal S1x128 .f32)
    (W2 : Vec Ideal S128x128 .f32) (b2 : Vec Ideal S1x128 .f32) (p : Fin 2000) (q : Fin 128) :
    Gen.k0_pay1 (F := Ideal) x W1 b1 W2 b2 (ix2 p q)
      = (∑ k : Fin 128,
          max ((∑ d : Fin 256, x (ix2 p d) * W1 (ix2 d k)) + b1 (ix2 (0 : Fin 1) k)) (Ideal.ofBits .f32 0x00000000#32)
            * W2 (ix2 k q))
        + b2 (ix2 (0 : Fin 1) q) := by
  unfold Gen.k0_pay1
  simp only [shapeCast_self]
  rw [addf_apply, productB_apply, broadcastTo_1b_ab_apply]
  refine congrArg (· + b2 (ix2 (0 : Fin 1) q)) (Finset.sum_congr rfl fun k _ => ?_)
  rw [maximumf_apply, addf_apply, productA_apply, broadcastTo_1b_ab_apply, broadcast_apply]
  rfl

/-- When the rows of the block are rows of the stacked table and the two one-row tables are the two biases, the stored
    entry is the two-layer output at that row and column. -/
theorem payload_eq_outAt (x : Vec Ideal S2000x256 .f32) (W1 : Vec Ideal S256x128 .f32) (b1 : Vec Ideal S1x128 .f32)
    (W2 : Vec Ideal S128x128 .f32) (b2 : Vec Ideal S1x128 .f32)
    (X : FVec Ideal ⟨3, ![1, 100000, 256]⟩ .f32) (B1 B2 : FVec Ideal ⟨1, ![128]⟩ .f32)
    (n : Fin 100000) (p : Fin 2000) (q : Fin 128)
    (hx : ∀ d : Fin 256, x (ix2 p d) = X (ix3 (0 : Fin 1) n d))
    (h1 : ∀ k : Fin 128, b1 (ix2 (0 : Fin 1) k) = B1 (ix1 k))
    (h2 : ∀ k : Fin 128, b2 (ix2 (0 : Fin 1) k) = B2 (ix1 k)) :
    Gen.k0_pay1 (F := Ideal) x W1 b1 W2 b2 (ix2 p q) = Cert.TwoLayer.outAt X W1 B1 W2 B2 n q := by
  rw [payload_apply]
  unfold Cert.TwoLayer.outAt Cert.TwoLayer.hiddenAt Cert.TwoLayer.affineAt
  simp only [hx, h1, h2]

end Cert.KernelIdeal.Hand

end
-- ==== Proof.KernelHostArrays.lean ====
/-
  The three tables the host lays out again before the kernel runs.

  The stack of one 100000 × 256 table is viewed as the 100000 × 256 table itself, and each bias of length 128 as a
  table of one row. A reshape keeps the row-major order of the entries, so entry (n, d) of the flattened table is entry
  (0, n, d) of the stack, and entry (0, k) of a one-row table is entry k of the bias.
-/
import proofs.«141814_g14336600834353_cont_week2b_369_2_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.Hand

open Cert.KernelIdeal Idealize.ShloMosaic Idealize.ShloMosaic.TcCoe Idealize.ShloMosaic.ValueIdx Idealize.SL.Sem

variable (m : (ℓ : Loc nD τ sig) → Buf (Elt Ideal) ℓ)

/-- The flattened table, as the kernel finds it, is the stack re-laid. -/
theorem flatTable_eq (c : Dev nD) :
    (Gen.V m c main_v0 : FVec Ideal S100000x256 .f32)
      = shapeCast S100000x256 (m ((c : Thread nD τ).loc main_arg0) : FVec Ideal S1x100000x256 .f32)
          Gen.shapeCasts_S1x100000x256_S100000x256 := by
  show StableHlo.after Gen.hostOps0 (fun b => m (c, b)) (Proc.devRef .tc main_v0) = _
  after_results
  rfl

/-- The first bias as a one-row table, as the kernel finds it. -/
theorem biasRow1_eq (c : Dev nD) :
    (Gen.V m c main_v1 : FVec Ideal S1x128 .f32)
      = shapeCast S1x128 (m ((c : Thread nD τ).loc main_arg2) : FVec Ideal S128 .f32) Gen.shapeCasts_S128_S1x128 := by
  show StableHlo.after Gen.hostOps0 (fun b => m (c, b)) (Proc.devRef .tc main_v1) = _
  after_results
  rfl

/-- The second bias as a one-row table, as the kernel finds it. -/
theorem biasRow2_eq (c : Dev nD) :
    (Gen.V m c main_v2 : FVec Ideal S1x128 .f32)
      = shapeCast S1x128 (m ((c : Thread nD τ).loc main_arg4) : FVec Ideal S128 .f32) Gen.shapeCasts_S128_S1x128 := by
  show StableHlo.after Gen.hostOps0 (fun b => m (c, b)) (Proc.devRef .tc main_v2) = _
  after_results
  rfl

/-- Entry (n, d) of the flattened table is entry (0, n, d) of the stack. -/
theorem flatTable_apply (c : Dev nD) (n : Fin 100000) (d : Fin 256) :
    (Gen.V m c main_v0 : FVec Ideal S100000x256 .f32) (ix2 n d)
      = (m ((c : Thread nD τ).loc main_arg0) : FVec Ideal S1x100000x256 .f32) (ix3 (0 : Fin 1) n d) := by
  rw [flatTable_eq]
  exact shapeCast_1ab_ab_apply _ _ n d

/-- Entry (u, k) of the first one-row table is entry k of the first bias. -/
theorem biasRow1_apply (c : Dev nD) (u : Fin 1) (k : Fin 128) :
    (Gen.V m c main_v1 : FVec Ideal S1x128 .f32) (ix2 u k)
      = (m ((c : Thread nD τ).loc main_arg2) : FVec Ideal S128 .f32) (ix1 k) := by
  rw [biasRow1_eq]
  exact shapeCast_a_1a_apply _ _ u k

/-- Entry (u, k) of the second one-row table is entry k of the second bias. -/
theorem biasRow2_apply (c : Dev nD) (u : Fin 1) (k : Fin 128) :
    (Gen.V m c main_v2 : FVec Ideal S1x128 .f32) (ix2 u k)
      = (m ((c : Thread nD τ).loc main_arg4) : FVec Ideal S128 .f32) (ix1 k) := by
  rw [biasRow2_eq]
  exact shapeCast_a_1a_apply _ _ u k

end Cert.KernelIdeal.Hand

end
-- ==== Proof.KernelBlocks.lean ====
/-
  From blocks to the whole table.

  The kernel walks the 100000 rows in 50 steps of 2000. At step t it reads rows 2000·t … 2000·t + 1999 of the flattened
  input table, both matrices and both one-row bias tables whole, and writes rows 2000·t … 2000·t + 1999 of the output
  table. Row 2000·t + p of the output is therefore the two-layer output of row 2000·t + p of the input; the 50 row
  blocks tile the output table, the one covering row r being step r / 2000; so after the last step the output table is
  the two-layer output at every row.
-/
import proofs.«141814_g14336600834353_cont_week2b_369_2_alg».proof.Proof.KernelPayload
import proofs.«141814_g14336600834353_cont_week2b_369_2_alg».proof.Proof.KernelHostArrays
import Idealize.ShloMosaic.Lib.Pipeline.Value

noncomputable section

namespace Cert.KernelIdeal.Hand

open Cert.KernelIdeal Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zeroOffsets : (![0, 0] : Fin 2 → Nat) = fun _ => 0 := funext fun a => by fin_cases a <;> rfl

/-- Where each window's block sits at step t: the row blocks of the input and of the output are block t along the rows;
    every other window is its whole table. -/
theorem blockIndex_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- There are 50 steps. -/
theorem step_lt (t : Fin cfg0.N) : t.val < 50 := by
  have h := t.isLt
  have hN : cfg0.N = 50 := Gen.N_0
  omega

/-! ## What each input block holds -/

/-- Row p of the input block at step t is row 2000·t + p of the stacked table. -/
theorem rows_block_apply (c : Dev nD) (t : Fin cfg0.N) (p : Fin 2000) (d : Fin 256) (n : Fin 100000)
    (hn : n.val = t.val * 2000 + p.val) :
    (Gen.iblk m c 0 t : Vec Ideal S2000x256 .f32) (ix2 p d)
      = (m ((c : Thread nD τ).loc main_arg0) : FVec Ideal S1x100000x256 .f32) (ix3 (0 : Fin 1) n d) := by
  obtain ⟨e0, e1, -⟩ := blockIndex_facts t
  unfold Gen.iblk
  rw [View.read_apply]
  show (Gen.V m c main_v0 : FVec Ideal S100000x256 .f32) _ = _
  have he : ((cfg0.win 0).blk t).view.emb (ix2 p d) = (ix2 n d : S100000x256.Idx) := by
    funext a; apply Fin.ext
    match a with
    | ⟨0, _⟩ => show win0_0.index t (0 : Fin 2) * 2000 + 1 * p.val = n.val; omega
    | ⟨1, _⟩ => show win0_0.index t (1 : Fin 2) * 256 + 1 * d.val = d.val; omega
  rw [he]
  exact flatTable_apply m c n d

/-- The first matrix's block is the whole first matrix, entry by entry. -/
theorem matrix1_block_apply (c : Dev nD) (t : Fin cfg0.N) (d : Fin 256) (k : Fin 128) :
    (Gen.iblk m c 1 t : Vec Ideal S256x128 .f32) (ix2 d k)
      = (m ((c : Thread nD τ).loc main_arg1) : FVec Ideal S256x128 .f32) (ix2 d k) := by
  obtain ⟨-, -, e0, e1, -⟩ := blockIndex_facts t
  unfold Gen.iblk
  rw [View.read_apply]
  show (Gen.V m c main_arg1 : FVec Ideal S256x128 .f32) _ = _
  rw [Gen.V_main_arg1]
  have he : ((cfg0.win 1).blk t).view.emb (ix2 d k) = (ix2 d k : S256x128.Idx) := by
    funext a; apply Fin.ext
    match a with
    | ⟨0, _⟩ => show win0_1.index t (0 : Fin 2) * 256 + 1 * d.val = d.val; omega
    | ⟨1, _⟩ => show win0_1.index t (1 : Fin 2) * 128 + 1 * k.val = k.val; omega
  rw [he]

/-- The first matrix's block is the whole first matrix. -/
theorem matrix1_block (c : Dev nD) (t : Fin cfg0.N) :
    (Gen.iblk m c 1 t : Vec Ideal S256x128 .f32) = (m ((c : Thread nD τ).loc main_arg1) : FVec Ideal S256x128 .f32) := by
  funext y
  obtain ⟨d, k, rfl⟩ : ∃ (d : Fin 256) (k : Fin 128), y = ix2 d k := ⟨y 0, y 1, eq_ix2 y⟩
  exact matrix1_block_apply m c t d k

/-- The second matrix's block is the whole second matrix, entry by entry. -/
theorem matrix2_block_apply (c : Dev nD) (t : Fin cfg0.N) (k : Fin 128) (q : Fin 128) :
    (Gen.iblk m c 3 t : Vec Ideal S128x128 .f32) (ix2 k q)
      = (m ((c : Thread nD τ).loc main_arg3) : FVec Ideal S128x128 .f32) (ix2 k q) := by
  obtain ⟨-, -, -, -, -, -, e0, e1, -⟩ := blockIndex_facts t
  unfold Gen.iblk
  rw [View.read_apply]
  show (Gen.V m c main_arg3 : FVec Ideal S128x128 .f32) _ = _
  rw [Gen.V_main_arg3]
  have he : ((cfg0.win 3).blk t).view.emb (ix2 k q) = (ix2 k q : S128x128.Idx) := by
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  rw [he]

/-- The second matrix's block is the whole second matrix. -/
theorem matrix2_block (c : Dev nD) (t : Fin cfg0.N) :
    (Gen.iblk m c 3 t : Vec Ideal S128x128 .f32) = (m ((c : Thread nD τ).loc main_arg3) : FVec Ideal S128x128 .f32) := by
  funext y
  obtain ⟨k, q, rfl⟩ : ∃ (k : Fin 128) (q : Fin 128), y = ix2 k q := ⟨y 0, y 1, eq_ix2 y⟩
  exact matrix2_block_apply m c t k q

/-- The first one-row block holds the first bias. -/
theorem biasRow1_block_apply (c : Dev nD) (t : Fin cfg0.N) (k : Fin 128) :
    (Gen.iblk m c 2 t : Vec Ideal S1x128 .f32) (ix2 (0 : Fin 1) k)
      = (m ((c : Thread nD τ).loc main_arg2) : FVec Ideal S128 .f32) (ix1 k) := by
  obtain ⟨-, -, -, -, e0, e1, -⟩ := blockIndex_facts t
  unfold Gen.iblk
  rw [View.read_apply]
  show (Gen.V m c main_v1 : FVec Ideal S1x128 .f32) _ = _
  have he : ((cfg0.win 2).blk t).view.emb (ix2 (0 : Fin 1) k) = (ix2 (0 : Fin 1) k : S1x128.Idx) := by
    funext a; apply Fin.ext
    match a with
    | ⟨0, _⟩ => show win0_2.index t (0 : Fin 2) * 1 + 1 * 0 = 0; omega
    | ⟨1, _⟩ => show win0_2.index t (1 : Fin 2) * 128 + 1 * k.val = k.val; omega
  rw [he]
  exact biasRow1_apply m c 0 k

/-- The second one-row block holds the second bias. -/
theorem biasRow2_block_apply (c : Dev nD) (t : Fin cfg0.N) (k : Fin 128) :
    (Gen.iblk m c 4 t : Vec Ideal S1x128 .f32) (ix2 (0 : Fin 1) k)
      = (m ((c : Thread nD τ).loc main_arg4) : FVec Ideal S128 .f32) (ix1 k) := by
  obtain ⟨-, -, -, -, -, -, -, -, e0, e1, -⟩ := blockIndex_facts t
  unfold Gen.iblk
  rw [View.read_apply]
  show (Gen.V m c main_v2 : FVec Ideal S1x128 .f32) _ = _
  have he : ((cfg0.win 4).blk t).view.emb (ix2 (0 : Fin 1) k) = (ix2 (0 : Fin 1) k : S1x128.Idx) := by
    funext a; apply Fin.ext
    match a with
    | ⟨0, _⟩ => show win0_4.index t (0 : Fin 2) * 1 + 1 * 0 = 0; omega
    | ⟨1, _⟩ => show win0_4.index t (1 : Fin 2) * 128 + 1 * k.val = k.val; omega
  rw [he]
  exact biasRow2_apply m c 0 k

/-! ## The output table -/

/-- The 100000 × 128 table the kernel fills: the two-layer output, row by row. -/
def filled (c : Dev nD) : FVec Ideal S100000x128 .f32 := fun i =>
  Cert.TwoLayer.outAt (m ((c : Thread nD τ).loc main_arg0)) (m ((c : Thread nD τ).loc main_arg1))
    (m ((c : Thread nD τ).loc main_arg2)) (m ((c : Thread nD τ).loc main_arg3)) (m ((c : Thread nD τ).loc main_arg4)) (i 0) (i 1)

theorem filled_ix2 (c : Dev nD) (n : Fin 100000) (q : Fin 128) :
    filled m c (ix2 n q)
      = Cert.TwoLayer.outAt (m ((c : Thread nD τ).loc main_arg0)) (m ((c : Thread nD τ).loc main_arg1))
          (m ((c : Thread nD τ).loc main_arg2)) (m ((c : Thread nD τ).loc main_arg3)) (m ((c : Thread nD τ).loc main_arg4)) n q := rfl

/-- What step t writes back is rows 2000·t … 2000·t + 1999 of that table. -/
theorem flushed_eq (c : Dev nD) (t : Fin cfg0.N) :
    (Gen.dats m 0 c).flushed 5 t = ((cfg0.win 5).blk t).view.read (Elt Ideal) (filled m c) := by
  show (cfg0.win 5).cut (grid0.coords t) ((Gen.dats m 0 c).after 5 t) = _
  rw [Gen.after0_5]
  unfold Gen.out0_5
  rw [View.canon_unit_zero zeroOffsets]
  simp only [View.ld_unit_zero (S := S2000x256) zeroOffsets, View.ld_unit_zero (S := S256x128) zeroOffsets,
    View.ld_unit_zero (S := S1x128) zeroOffsets, View.ld_unit_zero (S := S128x128) zeroOffsets]
  funext j
  obtain ⟨p, q, rfl⟩ : ∃ (p : Fin 2000) (q : Fin 128), j = ix2 p q := ⟨j 0, j 1, eq_ix2 j⟩
  obtain ⟨-, -, -, -, -, -, -, -, -, -, e0, e1⟩ := blockIndex_facts t
  have ht := step_lt t
  have hlt : t.val * 2000 + p.val < 100000 := by have := p.isLt; omega
  rw [View.read_apply]
  have he : ((cfg0.win 5).blk t).view.emb (ix2 p q) = (ix2 (⟨t.val * 2000 + p.val, hlt⟩ : Fin 100000) q : S100000x128.Idx) := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  rw [he, filled_ix2]
  show Gen.k0_pay1 (F := Ideal) (Gen.iblk m c 0 t) (Gen.iblk m c 1 t) (Gen.iblk m c 2 t) (Gen.iblk m c 3 t) (Gen.iblk m c 4 t) (ix2 p q) = _
  rw [matrix1_block m c t, matrix2_block m c t]
  exact payload_eq_outAt _ _ _ _ _ _ _ _ ⟨t.val * 2000 + p.val, hlt⟩ p q
    (fun d => rows_block_apply m c t p d _ rfl) (fun k => biasRow1_block_apply m c t k) (fun k => biasRow2_block_apply m c t k)

/-- An index of the output table lies in step t's block iff each coordinate lies in the block's range on its axis. -/
theorem mem_block (t : Fin cfg0.N) (i : S100000x128.Idx) :
    i ∈ ((cfg0.win 5).blk t).view.set
      ↔ ∀ a : Fin 2, win0_5.index t a * S2000x128.size a ≤ (i a).val ∧ (i a).val < win0_5.index t a * S2000x128.size a + S2000x128.size a := by
  show i ∈ ((View.whole main_v3).slice (win0_5.rect t)).set ↔ _
  rw [View.set_slice_whole, Rect.mem_set_unit]
  exact Iff.rfl

/-- Every row of the output table is written by some step: row r by step r / 2000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := Gen.N_0
  let t : Fin cfg0.N := ⟨(i 0).val / 2000, by omega⟩
  obtain ⟨-, -, -, -, -, -, -, -, -, -, e0, e1⟩ := blockIndex_facts t
  have htv : t.val = (i 0).val / 2000 := rfl
  refine ⟨t, Gen.flush0_5 t, ?_⟩
  rw [mem_block]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- After the last step the output table is the two-layer output at every row. -/
theorem final_table (c : Dev nD) : (Gen.dats m 0 c).arrAt 5 cfg0.N = filled m c :=
  (Gen.dats m 0 c).arrAt_eq_of_cover 5 (filled m c) (fun t _ => flushed_eq m c t) covered

end Cert.KernelIdeal.Hand

end
-- ==== Proof.KernelValue.lean ====
/-
  The kernel's result.

  After the 50 steps the host views the 100000 × 128 output table as a stack of one such table: entry (a, n, q) of the
  stack is entry (n, q) of the table, which is the two-layer output at row n and column q. The five arguments are never
  written: the two matrices are only read through their windows, and the stack and the two biases are touched by
  nothing after the launch.
-/
import proofs.«141814_g14336600834353_cont_week2b_369_2_alg».proof.Proof.KernelBlocks
import Idealize.ShloMosaic.Lib.StableHlo.Run

noncomputable section

namespace Cert.KernelIdeal.Hand

open Idealize.ShloMosaic Idealize.ShloMosaic.TcCoe Idealize.SL.Sem Cert.KernelIdeal
open Idealize.ShloMosaic.ValueIdx

/-- The output table as the lines after the region find it: the two-layer output at every row. -/
theorem table_after (m : (ℓ : Loc nD τ sig) → Buf (Elt Ideal) ℓ) (c : Dev nD) :
    (Pipeline.withArrays (cfgs 0).spec c (Gen.V0 m c) (fun w => (Gen.dats m 0 c).arrAt w (cfgs 0).N)
        (Proc.devRef .tc main_v3) : FVec Ideal S100000x128 .f32) = filled m c :=
  (Pipeline.withArrays_arr spec0 Gen.launch0.win.arr_inj c _ _ 5).trans (final_table m c)

/-- The result stack after the run is the two-layer output of the arguments. -/
theorem result_eq (m : (ℓ : Loc nD τ sig) → Buf (Elt Ideal) ℓ) (c : Dev nD) :
    Pipeline.afterTail₀ cfgs (Gen.dats m) 0 (Gen.V0 m) [Gen.hostOps1] c main_v4
      = Cert.TwoLayer.out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold Pipeline.afterTail₀
  show StableHlo.after Gen.hostOps1 _ (Proc.devRef .tc main_v4) = _
  after_results
  funext i
  obtain ⟨a, n, q, rfl⟩ : ∃ (a : Fin 1) (n : Fin 100000) (q : Fin 128), i = ix3 a n q := ⟨i 0, i 1, i 2, eq_ix3 i⟩
  show shapeCast S1x100000x128
      (Pipeline.withArrays (cfgs 0).spec c (Gen.V0 m c) (fun w => (Gen.dats m 0 c).arrAt w (cfgs 0).N)
        (Proc.devRef .tc main_v3) : FVec Ideal S100000x128 .f32)
      Gen.shapeCasts_S100000x128_S1x100000x128 (ix3 a n q) = _
  rw [shapeCast_ab_1ab_apply, table_after, filled_ix2, Cert.TwoLayer.out_ix3]

/-- The run of the kernel's program: the result is the two-layer output of the arguments, and the arguments are
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
          = Cert.TwoLayer.out (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (Gen.W_main_arg0 m (Gen.dats m) c),
      ((h c).1 1).trans (((Gen.dats m 0 c).arrAt_in 1 rfl _).trans ((Gen.A_eq m c 1).trans (Gen.V_main_arg1 m c))),
      ((h c).2 main_arg2 (Pipeline.mem_restRefs_of main_arg2 (by decide) (by decide))).trans (Gen.W_main_arg2 m (Gen.dats m) c),
      ((h c).1 3).trans (((Gen.dats m 0 c).arrAt_in 3 rfl _).trans ((Gen.A_eq m c 3).trans (Gen.V_main_arg3 m c))),
      ((h c).2 main_arg4 (Pipeline.mem_restRefs_of main_arg4 (by decide) (by decide))).trans (Gen.W_main_arg4 m (Gen.dats m) c)⟩)
    (Gen.run_main m ρ)

end Cert.KernelIdeal.Hand

end
-- ==== Proof.RefOpsTable.lean ====
/- The reference program's host operations in program order: one list for each of the two stretches its entry function is
   printed in (86 and 65 operations). Where the program calls one of its own functions, that function's operations
   stand at the call, over the buffers that call owns. Nothing is proved here. -/
import proofs.«141814_g14336600834353_cont_week2b_369_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The first stretch's operations, in order. -/
abbrev ops0 : List (HloOp τ sig (Elt F)) :=
  [ StableHlo.binary main_arg0 main_arg1 main_v0 ((fun l r => Host.dotGeneral dot_S1x100000x256_S256x128_S1x100000x128_2_0_01_1_n_n none l r) : (⟨S1x100000x256, .f32⟩ : BufTy).Contents (Elt F) → (⟨S256x128, .f32⟩ : BufTy).Contents (Elt F) → (⟨S1x100000x128, .f32⟩ : BufTy).Contents (Elt F)),
    StableHlo.nullary main_v1 (iotaInDim S100000 32 0),
    StableHlo.nullary main_v2 (iotaInDim S100000 32 0),
    StableHlo.nullary main_cst (constant S_ .f32 0x3F800000#32),
    StableHlo.unary main_cst main_v3 (broadcastInDim S100000 ![] bcast_S_S100000 : (⟨S_, .f32⟩ : BufTy).Contents (Elt F) → (⟨S100000, .f32⟩ : BufTy).Contents (Elt F)),
    StableHlo.nullary main_cst_0 (constant S_ .f32 0x00000000#32),
    StableHlo.unary main_cst_0 main_v4 (broadcastInDim S100000 ![] bcast_S_S100000 : (⟨S_, .f32⟩ : BufTy).Contents (Elt F) → (⟨S100000, .f32⟩ : BufTy).Contents (Elt F)),
    StableHlo.unary main_v2 main_v5 (broadcastInDim S100000x1 ![0] bcast_S100000_S100000x1_0 : (⟨S100000, .i32⟩ : BufTy).Contents (Elt F) → (⟨S100000x1, .i32⟩ : BufTy).Contents (Elt F)),
    StableHlo.ternary main_v4 main_v5 main_v3 main_v6 ((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)),
    StableHlo.nullary main_cst_1 (constant S_ .f32 0x00000000#32),
    StableHlo.unary main_cst_1 main_v7 (broadcastInDim S100000 ![] bcast_S_S100000 : (⟨S_, .f32⟩ : BufTy).Contents (Elt F) → (⟨S100000, .f32⟩ : BufTy).Contents (Elt F)),
    StableHlo.binary main_v6 main_v7 main_v8 (cmpf .ogt : (⟨S100000, .f32⟩ : BufTy).Contents (Elt F) → (⟨S100000, .f32⟩ : BufTy).Contents (Elt F) → (⟨S100000, .i1⟩ : BufTy).Contents (Elt F)),
    StableHlo.unary main_v6 main_v9 (Host.sqrt : (⟨S100000, .f32⟩ : BufTy).Contents (Elt F) → (⟨S100000, .f32⟩ : BufTy).Contents (Elt F)),
    StableHlo.nullary main_cst_2 (constant S_ .f32 0x3F800000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v10 main_v9 main_v11 (Host.divf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32),
    StableHlo.unary main_cst_3 main_call0_v0 (id : (⟨S_, .f32⟩ : BufTy).Contents (Elt F) → (⟨S_, .f32⟩ : BufTy).Contents (Elt F)),
    StableHlo.unary main_call0_v0 main_call0_v1 ((broadcastInDim S100000 ![] bcast_S_S100000) : (⟨S_, .f32⟩ : BufTy).Contents (Elt F) → (⟨S100000, .f32⟩ : BufTy).Contents (Elt F)),
    StableHlo.ternary main_v8 main_v11 main_call0_v1 main_v12 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v13 (broadcastInDim S100000 ![] bcast_S_S100000 : (⟨S_, .i32⟩ : BufTy).Contents (Elt F) → (⟨S100000, .i32⟩ : BufTy).Contents (Elt F)),
    StableHlo.binary main_v1 main_v13 main_v14 (cmpi .slt : (⟨S100000, .i32⟩ : BufTy).Contents (Elt F) → (⟨S100000, .i32⟩ : BufTy).Contents (Elt F) → (⟨S100000, .i1⟩ : BufTy).Contents (Elt F)),
    StableHlo.nullary main_c_4 (constantI S_ 32 100000#32),
    StableHlo.unary main_c_4 main_v15 (broadcastInDim S100000 ![] bcast_S_S100000 : (⟨S_, .i32⟩ : BufTy).Contents (Elt F) → (⟨S100000, .i32⟩ : BufTy).Contents (Elt F)),
    StableHlo.binary main_v1 main_v15 main_v16 (addi : (⟨S100000, .i32⟩ : BufTy).Contents (Elt F) → (⟨S100000, .i32⟩ : BufTy).Contents (Elt F) → (⟨S100000, .i32⟩ : BufTy).Contents (Elt F)),
    StableHlo.ternary main_v14 main_v16 main_v1 main_v17 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v17 main_v18 (broadcastInDim S100000x1 ![0] bcast_S100000_S100000x1_0 : (⟨S100000, .i32⟩ : BufTy).Contents (Elt F) → (⟨S100000x1, .i32⟩ : BufTy).Contents (Elt F)),
    StableHlo.binary main_v12 main_v18 main_v19 ((fun x i => Host.gather gather_S100000_S100000x1_S100000_n_0_n_n_0_1_1 x i) : (⟨S100000, .f32⟩ : BufTy).Contents (Elt F) → (⟨S100000x1, .i32⟩ : BufTy).Contents (Elt F) → (⟨S100000, .f32⟩ : BufTy).Contents (Elt F)),
    StableHlo.nullary main_c_5 (constantI S_ 32 0#32),
    StableHlo.unary main_c_5 main_v20 (broadcastInDim S100000 ![] bcast_S_S100000 : (⟨S_, .i32⟩ : BufTy).Contents (Elt F) → (⟨S100000, .i32⟩ : BufTy).Contents (Elt F)),
    StableHlo.binary main_v2 main_v20 main_v21 (cmpi .slt : (⟨S100000, .i32⟩ : BufTy).Contents (Elt F) → (⟨S100000, .i32⟩ : BufTy).Contents (Elt F) → (⟨S100000, .i1⟩ : BufTy).Contents (Elt F)),
    StableHlo.nullary main_c_6 (constantI S_ 32 100000#32),
    StableHlo.unary main_c_6 main_v22 (broadcastInDim S100000 ![] bcast_S_S100000 : (⟨S_, .i32⟩ : BufTy).Contents (Elt F) → (⟨S100000, .i32⟩ : BufTy).Contents (Elt F)),
    StableHlo.binary main_v2 main_v22 main_v23 (addi : (⟨S100000, .i32⟩ : BufTy).Contents (Elt F) → (⟨S100000, .i32⟩ : BufTy).Contents (Elt F) → (⟨S100000, .i32⟩ : BufTy).Contents (Elt F)),
    StableHlo.ternary main_v21 main_v23 main_v2 main_v24 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v24 main_v25 (broadcastInDim S100000x1 ![0] bcast_S100000_S100000x1_0 : (⟨S100000, .i32⟩ : BufTy).Contents (Elt F) → (⟨S100000x1, .i32⟩ : BufTy).Contents (Elt F)),
    StableHlo.binary main_v12 main_v25 main_v26 ((fun x i => Host.gather gather_S100000_S100000x1_S100000_n_0_n_n_0_1_1 x i) : (⟨S100000, .f32⟩ : BufTy).Contents (Elt F) → (⟨S100000x1, .i32⟩ : BufTy).Contents (Elt F) → (⟨S100000, .f32⟩ : BufTy).Contents (Elt F)),
    StableHlo.binary main_v19 main_v26 main_v27 (mulf : (⟨S100000, .f32⟩ : BufTy).Contents (Elt F) → (⟨S100000, .f32⟩ : BufTy).Contents (Elt F) → (⟨S100000, .f32⟩ : BufTy).Contents (Elt F)),
    StableHlo.nullary main_call1_c (constantI S_ 32 0#32),
    StableHlo.unary main_call1_c main_call1_v0 ((broadcastInDim S100000 ![] bcast_S_S100000) : (⟨S_, .i32⟩ : BufTy).Contents (Elt F) → (⟨S100000, .i32⟩ : BufTy).Contents (Elt F)),
    StableHlo.binary main_v1 main_call1_v0 main_call1_v1 ((cmpi .slt) : (⟨S100000, .i32⟩ : BufTy).Contents (Elt F) → (⟨S100000, .i32⟩ : BufTy).Contents (Elt F) → (⟨S100000, .i1⟩ : BufTy).Contents (Elt F)),
    StableHlo.nullary main_call1_c_0 (constantI S_ 32 100000#32),
    StableHlo.unary main_call1_c_0 main_call1_v2 ((broadcastInDim S100000 ![] bcast_S_S100000) : (⟨S_, .i32⟩ : BufTy).Contents (Elt F) → (⟨S100000, .i32⟩ : BufTy).Contents (Elt F)),
    StableHlo.binary main_v1 main_call1_v2 main_call1_v3 (addi : (⟨S100000, .i32⟩ : BufTy).Contents (Elt F) → (⟨S100000, .i32⟩ : BufTy).Contents (Elt F) → (⟨S100000, .i32⟩ : BufTy).Contents (Elt F)),
    StableHlo.ternary main_call1_v1 main_call1_v3 main_v1 main_call1_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_call1_v4 main_call1_v5 ((broadcastInDim S100000x1 ![0] bcast_S100000_S100000x1_0) : (⟨S100000, .i32⟩ : BufTy).Contents (Elt F) → (⟨S100000x1, .i32⟩ : BufTy).Contents (Elt F)),
    StableHlo.nullary main_call1_c_1 (constantI S1 32 99999#32),
    StableHlo.nullary main_call1_c_2 (constantI S_ 32 0#32),
    StableHlo.unary main_call1_c_2 main_call1_v6 ((broadcastInDim S100000x1 ![] bcast_S_S100000x1) : (⟨S_, .i32⟩ : BufTy).Contents (Elt F) → (⟨S100000x1, .i32⟩ : BufTy).Contents (Elt F)),
    StableHlo.binary main_call1_v5 main_call1_v6 main_call1_v7 ((cmpi .sge) : (⟨S100000x1, .i32⟩ : BufTy).Contents (Elt F) → (⟨S100000x1, .i32⟩ : BufTy).Contents (Elt F) → (⟨S100000x1, .i1⟩ : BufTy).Contents (Elt F)),
    StableHlo.unary main_call1_c_1 main_call1_v8 ((broadcastInDim S1x1 ![1] bcast_S1_S1x1_1) : (⟨S1, .i32⟩ : BufTy).Contents (Elt F) → (⟨S1x1, .i32⟩ : BufTy).Contents (Elt F)),
    StableHlo.unary main_call1_v8 main_call1_v9 ((broadcastInDim S100000x1 ![0, 1] bcast_S1x1_S100000x1_0_1) : (⟨S1x1, .i32⟩ : BufTy).Contents (Elt F) → (⟨S100000x1, .i32⟩ : BufTy).Contents (Elt F)),
    StableHlo.binary main_call1_v5 main_call1_v9 main_call1_v10 ((cmpi .sle) : (⟨S100000x1, .i32⟩ : BufTy).Contents (Elt F) → (⟨S100000x1, .i32⟩ : BufTy).Contents (Elt F) → (⟨S100000x1, .i1⟩ : BufTy).Contents (Elt F)),
    StableHlo.binary main_call1_v7 main_call1_v10 main_call1_v11 (andi : (⟨S100000x1, .i1⟩ : BufTy).Contents (Elt F) → (⟨S100000x1, .i1⟩ : BufTy).Contents (Elt F) → (⟨S100000x1, .i1⟩ : BufTy).Contents (Elt F)),
    StableHlo.nullary main_call1_c_3 (constantI S_ 1 1#1),
    StableHlo.binary main_call1_v11 main_call1_c_3 main_call1_v12 ((fun x v => Host.reduce IntOp.andi x v reducesTo_S100000x1_S100000_d1 h_S_) : (⟨S100000x1, .i1⟩ : BufTy).Contents (Elt F) → (⟨S_, .i1⟩ : BufTy).Contents (Elt F) → (⟨S100000, .i1⟩ : BufTy).Contents (Elt F)),
    StableHlo.binary main_v0 main_call1_v5 main_call1_v13 ((fun x i => Host.gather gather_S1x100000x128_S100000x1_S1x100000x128_02_1_n_n_1_1_11128 x i) : (⟨S1x100000x128, .f32⟩ : BufTy).Contents (Elt F) → (⟨S100000x1, .i32⟩ : BufTy).Contents (Elt F) → (⟨S1x100000x128, .f32⟩ : BufTy).Contents (Elt F)),
    StableHlo.unary main_call1_v12 main_call1_v14 ((broadcastInDim S1x100000x128 ![1] bcast_S100000_S1x100000x128_1) : (⟨S100000, .i1⟩ : BufTy).Contents (Elt F) → (⟨S1x100000x128, .i1⟩ : BufTy).Contents (Elt F)),
    StableHlo.nullary main_call1_cst (constant S_ .f32 0x7FC00000#32),
    StableHlo.unary main_call1_cst main_call1_v15 ((broadcastInDim S1x100000x128 ![] bcast_S_S1x100000x128) : (⟨S_, .f32⟩ : BufTy).Contents (Elt F) → (⟨S1x100000x128, .f32⟩ : BufTy).Contents (Elt F)),
    StableHlo.ternary main_call1_v14 main_call1_v13 main_call1_v15 main_v28 (select : (⟨S1x100000x128, .i1⟩ : BufTy).Contents (Elt F) → (⟨S1x100000x128, .f32⟩ : BufTy).Contents (Elt F) → (⟨S1x100000x128, .f32⟩ : BufTy).Contents (Elt F) → (⟨S1x100000x128, .f32⟩ : BufTy).Contents (Elt F)),
    StableHlo.unary main_v27 main_v29 (broadcastInDim S1x100000x1 ![1] bcast_S100000_S1x100000x1_1 : (⟨S100000, .f32⟩ : BufTy).Contents (Elt F) → (⟨S1x100000x1, .f32⟩ : BufTy).Contents (Elt F)),
    StableHlo.unary main_v29 main_v30 (broadcastInDim S1x100000x128 ![0, 1, 2] bcast_S1x100000x1_S1x100000x128_0_1_2 : (⟨S1x100000x1, .f32⟩ : BufTy).Contents (Elt F) → (⟨S1x100000x128, .f32⟩ : BufTy).Contents (Elt F)),
    StableHlo.binary main_v28 main_v30 main_v31 (mulf : (⟨S1x100000x128, .f32⟩ : BufTy).Contents (Elt F) → (⟨S1x100000x128, .f32⟩ : BufTy).Contents (Elt F) → (⟨S1x100000x128, .f32⟩ : BufTy).Contents (Elt F)),
    StableHlo.reshape main_v31 main_v32 rfl shapeCasts_S1x100000x128_S100000x128,
    StableHlo.nullary main_cst_7 (constant S_ .f32 0x00000000#32),
    StableHlo.unary main_cst_7 main_v33 (broadcastInDim S100000x128 ![] bcast_S_S100000x128 : (⟨S_, .f32⟩ : BufTy).Contents (Elt F) → (⟨S100000x128, .f32⟩ : BufTy).Contents (Elt F)),
    StableHlo.unary main_v2 main_v34 (broadcastInDim S100000x1 ![0] bcast_S100000_S100000x1_0 : (⟨S100000, .i32⟩ : BufTy).Contents (Elt F) → (⟨S100000x1, .i32⟩ : BufTy).Contents (Elt F)),
    StableHlo.ternary main_v33 main_v34 main_v32 main_v35 ((fun x i u => Host.scatterAdd scatter_S100000x128_S100000x1_S100000x128_1_0_0_1 x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)),
    StableHlo.unary main_v35 main_v36 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_arg2 main_v37 (broadcastInDim S1x1x128 ![2] bcast_S128_S1x1x128_2 : (⟨S128, .f32⟩ : BufTy).Contents (Elt F) → (⟨S1x1x128, .f32⟩ : BufTy).Contents (Elt F)),
    StableHlo.unary main_v37 main_v38 (broadcastInDim S1x100000x128 ![0, 1, 2] bcast_S1x1x128_S1x100000x128_0_1_2 : (⟨S1x1x128, .f32⟩ : BufTy).Contents (Elt F) → (⟨S1x100000x128, .f32⟩ : BufTy).Contents (Elt F)),
    StableHlo.binary main_v36 main_v38 main_v39 (addf : (⟨S1x100000x128, .f32⟩ : BufTy).Contents (Elt F) → (⟨S1x100000x128, .f32⟩ : BufTy).Contents (Elt F) → (⟨S1x100000x128, .f32⟩ : BufTy).Contents (Elt F)),
    StableHlo.nullary main_call2_cst (constant S_ .f32 0x00000000#32),
    StableHlo.unary main_call2_cst main_call2_v0 ((broadcastInDim S1x100000x128 ![] bcast_S_S1x100000x128) : (⟨S_, .f32⟩ : BufTy).Contents (Elt F) → (⟨S1x100000x128, .f32⟩ : BufTy).Contents (Elt F)),
    StableHlo.binary main_v39 main_call2_v0 main_v40 (maximumf : (⟨S1x100000x128, .f32⟩ : BufTy).Contents (Elt F) → (⟨S1x100000x128, .f32⟩ : BufTy).Contents (Elt F) → (⟨S1x100000x128, .f32⟩ : BufTy).Contents (Elt F)),
    StableHlo.binary main_v40 main_arg3 main_v41 ((fun l r => Host.dotGeneral dot_S1x100000x128_S128x128_S1x100000x128_2_0_01_1_n_n none l r) : (⟨S1x100000x128, .f32⟩ : BufTy).Contents (Elt F) → (⟨S128x128, .f32⟩ : BufTy).Contents (Elt F) → (⟨S1x100000x128, .f32⟩ : BufTy).Contents (Elt F)),
    StableHlo.nullary main_v42 (iotaInDim S100000 32 0),
    StableHlo.nullary main_v43 (iotaInDim S100000 32 0),
    StableHlo.nullary main_cst_8 (constant S_ .f32 0x3F800000#32),
    StableHlo.unary main_cst_8 main_v44 (broadcastInDim S100000 ![] bcast_S_S100000 : (⟨S_, .f32⟩ : BufTy).Contents (Elt F) → (⟨S100000, .f32⟩ : BufTy).Contents (Elt F)),
    StableHlo.nullary main_cst_9 (constant S_ .f32 0x00000000#32),
    StableHlo.unary main_cst_9 main_v45 (broadcastInDim S100000 ![] bcast_S_S100000 : (⟨S_, .f32⟩ : BufTy).Contents (Elt F) → (⟨S100000, .f32⟩ : BufTy).Contents (Elt F)),
    StableHlo.unary main_v43 main_v46 (broadcastInDim S100000x1 ![0] bcast_S100000_S100000x1_0 : (⟨S100000, .i32⟩ : BufTy).Contents (Elt F) → (⟨S100000x1, .i32⟩ : BufTy).Contents (Elt F)),
    StableHlo.ternary main_v45 main_v46 main_v44 main_v47 ((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)) ]

set_option maxRecDepth 8192 in
/-- The second stretch's operations, in order. -/
abbrev ops1 : List (HloOp τ sig (Elt F)) :=
  [ StableHlo.nullary main_cst_10 (constant S_ .f32 0x00000000#32),
    StableHlo.unary main_cst_10 main_v48 (broadcastInDim S100000 ![] bcast_S_S100000 : (⟨S_, .f32⟩ : BufTy).Contents (Elt F) → (⟨S100000, .f32⟩ : BufTy).Contents (Elt F)),
    StableHlo.binary main_v47 main_v48 main_v49 (cmpf .ogt : (⟨S100000, .f32⟩ : BufTy).Contents (Elt F) → (⟨S100000, .f32⟩ : BufTy).Contents (Elt F) → (⟨S100000, .i1⟩ : BufTy).Contents (Elt F)),
    StableHlo.unary main_v47 main_v50 (Host.sqrt : (⟨S100000, .f32⟩ : BufTy).Contents (Elt F) → (⟨S100000, .f32⟩ : BufTy).Contents (Elt F)),
    StableHlo.nullary main_cst_11 (constant S_ .f32 0x3F800000#32),
    StableHlo.unary main_cst_11 main_v51 (broadcastInDim S100000 ![] bcast_S_S100000 : (⟨S_, .f32⟩ : BufTy).Contents (Elt F) → (⟨S100000, .f32⟩ : BufTy).Contents (Elt F)),
    StableHlo.binary main_v51 main_v50 main_v52 (Host.divf : (⟨S100000, .f32⟩ : BufTy).Contents (Elt F) → (⟨S100000, .f32⟩ : BufTy).Contents (Elt F) → (⟨S100000, .f32⟩ : BufTy).Contents (Elt F)),
    StableHlo.nullary main_cst_12 (constant S_ .f32 0x00000000#32),
    StableHlo.unary main_cst_12 main_call3_v0 (id : (⟨S_, .f32⟩ : BufTy).Contents (Elt F) → (⟨S_, .f32⟩ : BufTy).Contents (Elt F)),
    StableHlo.unary main_call3_v0 main_call3_v1 ((broadcastInDim S100000 ![] bcast_S_S100000) : (⟨S_, .f32⟩ : BufTy).Contents (Elt F) → (⟨S100000, .f32⟩ : BufTy).Contents (Elt F)),
    StableHlo.ternary main_v49 main_v52 main_call3_v1 main_v53 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c_13 (constantI S_ 32 0#32),
    StableHlo.unary main_c_13 main_v54 (broadcastInDim S100000 ![] bcast_S_S100000 : (⟨S_, .i32⟩ : BufTy).Contents (Elt F) → (⟨S100000, .i32⟩ : BufTy).Contents (Elt F)),
    StableHlo.binary main_v42 main_v54 main_v55 (cmpi .slt : (⟨S100000, .i32⟩ : BufTy).Contents (Elt F) → (⟨S100000, .i32⟩ : BufTy).Contents (Elt F) → (⟨S100000, .i1⟩ : BufTy).Contents (Elt F)),
    StableHlo.nullary main_c_14 (constantI S_ 32 100000#32),
    StableHlo.unary main_c_14 main_v56 (broadcastInDim S100000 ![] bcast_S_S100000 : (⟨S_, .i32⟩ : BufTy).Contents (Elt F) → (⟨S100000, .i32⟩ : BufTy).Contents (Elt F)),
    StableHlo.binary main_v42 main_v56 main_v57 (addi : (⟨S100000, .i32⟩ : BufTy).Contents (Elt F) → (⟨S100000, .i32⟩ : BufTy).Contents (Elt F) → (⟨S100000, .i32⟩ : BufTy).Contents (Elt F)),
    StableHlo.ternary main_v55 main_v57 main_v42 main_v58 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v58 main_v59 (broadcastInDim S100000x1 ![0] bcast_S100000_S100000x1_0 : (⟨S100000, .i32⟩ : BufTy).Contents (Elt F) → (⟨S100000x1, .i32⟩ : BufTy).Contents (Elt F)),
    StableHlo.binary main_v53 main_v59 main_v60 ((fun x i => Host.gather gather_S100000_S100000x1_S100000_n_0_n_n_0_1_1 x i) : (⟨S100000, .f32⟩ : BufTy).Contents (Elt F) → (⟨S100000x1, .i32⟩ : BufTy).Contents (Elt F) → (⟨S100000, .f32⟩ : BufTy).Contents (Elt F)),
    StableHlo.nullary main_c_15 (constantI S_ 32 0#32),
    StableHlo.unary main_c_15 main_v61 (broadcastInDim S100000 ![] bcast_S_S100000 : (⟨S_, .i32⟩ : BufTy).Contents (Elt F) → (⟨S100000, .i32⟩ : BufTy).Contents (Elt F)),
    StableHlo.binary main_v43 main_v61 main_v62 (cmpi .slt : (⟨S100000, .i32⟩ : BufTy).Contents (Elt F) → (⟨S100000, .i32⟩ : BufTy).Contents (Elt F) → (⟨S100000, .i1⟩ : BufTy).Contents (Elt F)),
    StableHlo.nullary main_c_16 (constantI S_ 32 100000#32),
    StableHlo.unary main_c_16 main_v63 (broadcastInDim S100000 ![] bcast_S_S100000 : (⟨S_, .i32⟩ : BufTy).Contents (Elt F) → (⟨S100000, .i32⟩ : BufTy).Contents (Elt F)),
    StableHlo.binary main_v43 main_v63 main_v64 (addi : (⟨S100000, .i32⟩ : BufTy).Contents (Elt F) → (⟨S100000, .i32⟩ : BufTy).Contents (Elt F) → (⟨S100000, .i32⟩ : BufTy).Contents (Elt F)),
    StableHlo.ternary main_v62 main_v64 main_v43 main_v65 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v65 main_v66 (broadcastInDim S100000x1 ![0] bcast_S100000_S100000x1_0 : (⟨S100000, .i32⟩ : BufTy).Contents (Elt F) → (⟨S100000x1, .i32⟩ : BufTy).Contents (Elt F)),
    StableHlo.binary main_v53 main_v66 main_v67 ((fun x i => Host.gather gather_S100000_S100000x1_S100000_n_0_n_n_0_1_1 x i) : (⟨S100000, .f32⟩ : BufTy).Contents (Elt F) → (⟨S100000x1, .i32⟩ : BufTy).Contents (Elt F) → (⟨S100000, .f32⟩ : BufTy).Contents (Elt F)),
    StableHlo.binary main_v60 main_v67 main_v68 (mulf : (⟨S100000, .f32⟩ : BufTy).Contents (Elt F) → (⟨S100000, .f32⟩ : BufTy).Contents (Elt F) → (⟨S100000, .f32⟩ : BufTy).Contents (Elt F)),
    StableHlo.nullary main_call4_c (constantI S_ 32 0#32),
    StableHlo.unary main_call4_c main_call4_v0 ((broadcastInDim S100000 ![] bcast_S_S100000) : (⟨S_, .i32⟩ : BufTy).Contents (Elt F) → (⟨S100000, .i32⟩ : BufTy).Contents (Elt F)),
    StableHlo.binary main_v42 main_call4_v0 main_call4_v1 ((cmpi .slt) : (⟨S100000, .i32⟩ : BufTy).Contents (Elt F) → (⟨S100000, .i32⟩ : BufTy).Contents (Elt F) → (⟨S100000, .i1⟩ : BufTy).Contents (Elt F)),
    StableHlo.nullary main_call4_c_0 (constantI S_ 32 100000#32),
    StableHlo.unary main_call4_c_0 main_call4_v2 ((broadcastInDim S100000 ![] bcast_S_S100000) : (⟨S_, .i32⟩ : BufTy).Contents (Elt F) → (⟨S100000, .i32⟩ : BufTy).Contents (Elt F)),
    StableHlo.binary main_v42 main_call4_v2 main_call4_v3 (addi : (⟨S100000, .i32⟩ : BufTy).Contents (Elt F) → (⟨S100000, .i32⟩ : BufTy).Contents (Elt F) → (⟨S100000, .i32⟩ : BufTy).Contents (Elt F)),
    StableHlo.ternary main_call4_v1 main_call4_v3 main_v42 main_call4_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_call4_v4 main_call4_v5 ((broadcastInDim S100000x1 ![0] bcast_S100000_S100000x1_0) : (⟨S100000, .i32⟩ : BufTy).Contents (Elt F) → (⟨S100000x1, .i32⟩ : BufTy).Contents (Elt F)),
    StableHlo.nullary main_call4_c_1 (constantI S1 32 99999#32),
    StableHlo.nullary main_call4_c_2 (constantI S_ 32 0#32),
    StableHlo.unary main_call4_c_2 main_call4_v6 ((broadcastInDim S100000x1 ![] bcast_S_S100000x1) : (⟨S_, .i32⟩ : BufTy).Contents (Elt F) → (⟨S100000x1, .i32⟩ : BufTy).Contents (Elt F)),
    StableHlo.binary main_call4_v5 main_call4_v6 main_call4_v7 ((cmpi .sge) : (⟨S100000x1, .i32⟩ : BufTy).Contents (Elt F) → (⟨S100000x1, .i32⟩ : BufTy).Contents (Elt F) → (⟨S100000x1, .i1⟩ : BufTy).Contents (Elt F)),
    StableHlo.unary main_call4_c_1 main_call4_v8 ((broadcastInDim S1x1 ![1] bcast_S1_S1x1_1) : (⟨S1, .i32⟩ : BufTy).Contents (Elt F) → (⟨S1x1, .i32⟩ : BufTy).Contents (Elt F)),
    StableHlo.unary main_call4_v8 main_call4_v9 ((broadcastInDim S100000x1 ![0, 1] bcast_S1x1_S100000x1_0_1) : (⟨S1x1, .i32⟩ : BufTy).Contents (Elt F) → (⟨S100000x1, .i32⟩ : BufTy).Contents (Elt F)),
    StableHlo.binary main_call4_v5 main_call4_v9 main_call4_v10 ((cmpi .sle) : (⟨S100000x1, .i32⟩ : BufTy).Contents (Elt F) → (⟨S100000x1, .i32⟩ : BufTy).Contents (Elt F) → (⟨S100000x1, .i1⟩ : BufTy).Contents (Elt F)),
    StableHlo.binary main_call4_v7 main_call4_v10 main_call4_v11 (andi : (⟨S100000x1, .i1⟩ : BufTy).Contents (Elt F) → (⟨S100000x1, .i1⟩ : BufTy).Contents (Elt F) → (⟨S100000x1, .i1⟩ : BufTy).Contents (Elt F)),
    StableHlo.nullary main_call4_c_3 (constantI S_ 1 1#1),
    StableHlo.binary main_call4_v11 main_call4_c_3 main_call4_v12 ((fun x v => Host.reduce IntOp.andi x v reducesTo_S100000x1_S100000_d1 h_S_) : (⟨S100000x1, .i1⟩ : BufTy).Contents (Elt F) → (⟨S_, .i1⟩ : BufTy).Contents (Elt F) → (⟨S100000, .i1⟩ : BufTy).Contents (Elt F)),
    StableHlo.binary main_v41 main_call4_v5 main_call4_v13 ((fun x i => Host.gather gather_S1x100000x128_S100000x1_S1x100000x128_02_1_n_n_1_1_11128 x i) : (⟨S1x100000x128, .f32⟩ : BufTy).Contents (Elt F) → (⟨S100000x1, .i32⟩ : BufTy).Contents (Elt F) → (⟨S1x100000x128, .f32⟩ : BufTy).Contents (Elt F)),
    StableHlo.unary main_call4_v12 main_call4_v14 ((broadcastInDim S1x100000x128 ![1] bcast_S100000_S1x100000x128_1) : (⟨S100000, .i1⟩ : BufTy).Contents (Elt F) → (⟨S1x100000x128, .i1⟩ : BufTy).Contents (Elt F)),
    StableHlo.nullary main_call4_cst (constant S_ .f32 0x7FC00000#32),
    StableHlo.unary main_call4_cst main_call4_v15 ((broadcastInDim S1x100000x128 ![] bcast_S_S1x100000x128) : (⟨S_, .f32⟩ : BufTy).Contents (Elt F) → (⟨S1x100000x128, .f32⟩ : BufTy).Contents (Elt F)),
    StableHlo.ternary main_call4_v14 main_call4_v13 main_call4_v15 main_v69 (select : (⟨S1x100000x128, .i1⟩ : BufTy).Contents (Elt F) → (⟨S1x100000x128, .f32⟩ : BufTy).Contents (Elt F) → (⟨S1x100000x128, .f32⟩ : BufTy).Contents (Elt F) → (⟨S1x100000x128, .f32⟩ : BufTy).Contents (Elt F)),
    StableHlo.unary main_v68 main_v70 (broadcastInDim S1x100000x1 ![1] bcast_S100000_S1x100000x1_1 : (⟨S100000, .f32⟩ : BufTy).Contents (Elt F) → (⟨S1x100000x1, .f32⟩ : BufTy).Contents (Elt F)),
    StableHlo.unary main_v70 main_v71 (broadcastInDim S1x100000x128 ![0, 1, 2] bcast_S1x100000x1_S1x100000x128_0_1_2 : (⟨S1x100000x1, .f32⟩ : BufTy).Contents (Elt F) → (⟨S1x100000x128, .f32⟩ : BufTy).Contents (Elt F)),
    StableHlo.binary main_v69 main_v71 main_v72 (mulf : (⟨S1x100000x128, .f32⟩ : BufTy).Contents (Elt F) → (⟨S1x100000x128, .f32⟩ : BufTy).Contents (Elt F) → (⟨S1x100000x128, .f32⟩ : BufTy).Contents (Elt F)),
    StableHlo.reshape main_v72 main_v73 rfl shapeCasts_S1x100000x128_S100000x128,
    StableHlo.nullary main_cst_17 (constant S_ .f32 0x00000000#32),
    StableHlo.unary main_cst_17 main_v74 (broadcastInDim S100000x128 ![] bcast_S_S100000x128 : (⟨S_, .f32⟩ : BufTy).Contents (Elt F) → (⟨S100000x128, .f32⟩ : BufTy).Contents (Elt F)),
    StableHlo.unary main_v43 main_v75 (broadcastInDim S100000x1 ![0] bcast_S100000_S100000x1_0 : (⟨S100000, .i32⟩ : BufTy).Contents (Elt F) → (⟨S100000x1, .i32⟩ : BufTy).Contents (Elt F)),
    StableHlo.ternary main_v74 main_v75 main_v73 main_v76 ((fun x i u => Host.scatterAdd scatter_S100000x128_S100000x1_S100000x128_1_0_0_1 x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)),
    StableHlo.unary main_v76 main_v77 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_arg4 main_v78 (broadcastInDim S1x1x128 ![2] bcast_S128_S1x1x128_2 : (⟨S128, .f32⟩ : BufTy).Contents (Elt F) → (⟨S1x1x128, .f32⟩ : BufTy).Contents (Elt F)),
    StableHlo.unary main_v78 main_v79 (broadcastInDim S1x100000x128 ![0, 1, 2] bcast_S1x1x128_S1x100000x128_0_1_2 : (⟨S1x1x128, .f32⟩ : BufTy).Contents (Elt F) → (⟨S1x100000x128, .f32⟩ : BufTy).Contents (Elt F)),
    StableHlo.binary main_v77 main_v79 main_v80 (addf : (⟨S1x100000x128, .f32⟩ : BufTy).Contents (Elt F) → (⟨S1x100000x128, .f32⟩ : BufTy).Contents (Elt F) → (⟨S1x100000x128, .f32⟩ : BufTy).Contents (Elt F)) ]

end Cert.ReferenceIdeal.Hand

end
-- ==== Proof.RefRun.lean ====
/-
  The reference program runs to its end, and every buffer ends at what the program's operations, applied one after the
  other to the contents the run started from, leave in it. The operations come in two stretches; applying the second
  stretch's operations to what the first stretch's leave is applying the whole line.
-/
import proofs.«141814_g14336600834353_cont_week2b_369_2_alg».proof.Proof.RefOpsTable
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Applying a line of operations made of two lines is applying the first, then the second. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 4000000 in
/-- The first stretch of the entry function is its list of operations run in order: each called function's body stands
    at its call, and sequencing is associative. -/
theorem part0_eq (c : Dev nD) : main_part0 (F := F) c = seq ops0 := by chain_rfl

set_option maxRecDepth 8192 in
set_option maxHeartbeats 4000000 in
/-- The second stretch likewise. -/
theorem part1_eq (c : Dev nD) : main_part1 (F := F) c = seq ops1 := by chain_rfl

/-- The entry function is the two lists run one after the other. -/
theorem main_eq (c : Dev nD) : main (F := F) c = seq (ops0 ++ ops1) := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of the first stretch touches buffers of the one core only. -/
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
/-- And of the second. -/
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, and_self]

theorem ops_sub : (ops0 ++ ops1 : List (HloOp τ sig (Elt F))).Forall fun op => op.bufs ⊆ tcRefs τ sig :=
  List.forall_iff_forall_mem.mpr fun op h => by
    rcases List.mem_append.mp h with h | h
    exacts [List.forall_iff_forall_mem.mp ops0_sub op h, List.forall_iff_forall_mem.mp ops1_sub op h]

set_option maxRecDepth 8192 in
/-- No operation of the first stretch leaves a buffer's contents open. -/
theorem ops0_fresh : (ops0 : List (HloOp τ sig (Elt F))).Forall fun op => op.fresh = ∅ := by
  simp only [List.Forall]; repeat' constructor

set_option maxRecDepth 8192 in
/-- Nor of the second. -/
theorem ops1_fresh : (ops1 : List (HloOp τ sig (Elt F))).Forall fun op => op.fresh = ∅ := by
  simp only [List.Forall]; repeat' constructor

/-- From any memory with zero counters every weakly fair execution of the reference program terminates, and every
    buffer of the core ends at the second stretch's operations applied to what the first stretch's leave of the
    contents the run started from. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops1 (after ops0 (launchContents m c)) (Proc.devRef .tc b) :=
  (θ_run defs _ _).mono (fun _ h c b => (h c b).trans (by rw [after_append]))
    (run_seq scopedRefs_eq scopedSems_eq defs main (fun _ => ops0 ++ ops1) main_eq (fun _ => ops_sub) m ρ
      (fun _ op h => by
        rcases List.mem_append.mp h with h | h
        exacts [List.forall_iff_forall_mem.mp ops0_fresh op h, List.forall_iff_forall_mem.mp ops1_fresh op h]))

end Cert.ReferenceIdeal.Hand

end
-- ==== Proof.RefStages.lean ====
/-
  The reference program's stages as functions.

  The program applies the same chain of operations twice, once per layer. A layer takes rows h (one row of 128 entries
  per node, 100000 nodes), two vectors of node positions ia and ib (in the program both are 0, 1, …, 99999: every node
  sends one message to itself), and a bias. It counts the messages arriving at each node by adding a one at each
  position of ib into a vector of zeros (deg), takes one over the square root of the count where the count is positive
  (dinv), multiplies the two ends' values for every message (norm), looks the sender's row up, masked to a fill value
  where the position is out of range (take), scales it by norm, adds the scaled rows into a table of zeros at the
  receivers' positions, and adds the bias to every row.
-/
import proofs.«141814_g14336600834353_cont_week2b_369_2_alg».proof.Proof.Gen.ReferenceIdeal

noncomputable section

namespace Cert.ReferenceIdeal.Hand

open Cert.ReferenceIdeal Cert.ReferenceIdeal.Gen Idealize.ShloMosaic

variable {F : FTy → Type} [FloatOps F]

/-- The positions 0, 1, …, 99999 as 32-bit words. -/
def iotaV : IVec S100000 32 := iotaInDim S100000 32 0

/-- A vector of positions kept as a column. -/
def col (v : IVec S100000 32) : IVec S100000x1 32 :=
  broadcastInDim S100000x1 ![0] bcast_S100000_S100000x1_0 v

/-- A negative position counted from the end: v + 100000 where v < 0, else v. -/
def wrap (v : IVec S100000 32) : IVec S100000 32 :=
  select (cmpi .slt v (broadcastInDim S100000 ![] bcast_S_S100000 (constantI S_ 32 0#32)))
    (addi v (broadcastInDim S100000 ![] bcast_S_S100000 (constantI S_ 32 100000#32))) v

/-- How many positions of ib name each node: a one added at every position into zeros. -/
def degOf (ib : IVec S100000 32) : FVec F S100000 .f32 :=
  Host.scatterAdd scatter_S100000_S100000x1_S100000_n_0_0_1
    (broadcastInDim S100000 ![] bcast_S_S100000 (constant S_ .f32 0x00000000#32)) (col ib)
    (broadcastInDim S100000 ![] bcast_S_S100000 (constant S_ .f32 0x3F800000#32))

/-- One over the square root of the count where the count is positive, zero elsewhere. -/
def dinvOf (deg : FVec F S100000 .f32) : FVec F S100000 .f32 :=
  select (cmpf .ogt deg (broadcastInDim S100000 ![] bcast_S_S100000 (constant S_ .f32 0x00000000#32)))
    (Host.divf (broadcastInDim S100000 ![] bcast_S_S100000 (constant S_ .f32 0x3F800000#32)) (Host.sqrt deg))
    (broadcastInDim S100000 ![] bcast_S_S100000 (id (constant S_ .f32 0x00000000#32)))

/-- Per message, the product of the two ends' values. -/
def normOf (dinv : FVec F S100000 .f32) (ia ib : IVec S100000 32) : FVec F S100000 .f32 :=
  mulf (Host.gather gather_S100000_S100000x1_S100000_n_0_n_n_0_1_1 dinv (col (wrap ia)))
    (Host.gather gather_S100000_S100000x1_S100000_n_0_n_n_0_1_1 dinv (col (wrap ib)))

/-- The flag "0 ≤ position ≤ 99999" on a column of positions. -/
def inRange (c : IVec S100000x1 32) : IVec S100000x1 1 :=
  andi (cmpi .sge c (broadcastInDim S100000x1 ![] bcast_S_S100000x1 (constantI S_ 32 0#32)))
    (cmpi .sle c (broadcastInDim S100000x1 ![0, 1] bcast_S1x1_S100000x1_0_1
      (broadcastInDim S1x1 ![1] bcast_S1_S1x1_1 (constantI S1 32 99999#32))))

/-- The senders' rows: row ia[n] of h where that position is in range, a fill value elsewhere. -/
def takeOf (h : FVec F S1x100000x128 .f32) (ia : IVec S100000 32) : FVec F S1x100000x128 .f32 :=
  select
    (broadcastInDim S1x100000x128 ![1] bcast_S100000_S1x100000x128_1
      (Host.reduce IntOp.andi (inRange (col (wrap ia))) (constantI S_ 1 1#1) reducesTo_S100000x1_S100000_d1 h_S_))
    (Host.gather gather_S1x100000x128_S100000x1_S1x100000x128_02_1_n_n_1_1_11128 h (col (wrap ia)))
    (broadcastInDim S1x100000x128 ![] bcast_S_S1x100000x128 (constant S_ .f32 0x7FC00000#32))

/-- One layer from the count vector on: scaled senders' rows added at the receivers, plus the bias. -/
def convWith (deg : FVec F S100000 .f32) (h : FVec F S1x100000x128 .f32) (ia ib : IVec S100000 32)
    (b : FVec F S128 .f32) : FVec F S1x100000x128 .f32 :=
  addf
    (broadcastInDim S1x100000x128 ![1, 2] bcast_S100000x128_S1x100000x128_1_2
      (Host.scatterAdd scatter_S100000x128_S100000x1_S100000x128_1_0_0_1
        (broadcastInDim S100000x128 ![] bcast_S_S100000x128 (constant S_ .f32 0x00000000#32)) (col ib)
        (shapeCast S100000x128
          (mulf (takeOf h ia)
            (broadcastInDim S1x100000x128 ![0, 1, 2] bcast_S1x100000x1_S1x100000x128_0_1_2
              (broadcastInDim S1x100000x1 ![1] bcast_S100000_S1x100000x1_1 (normOf (dinvOf deg) ia ib))))
          shapeCasts_S1x100000x128_S100000x128)))
    (broadcastInDim S1x100000x128 ![0, 1, 2] bcast_S1x1x128_S1x100000x128_0_1_2
      (broadcastInDim S1x1x128 ![2] bcast_S128_S1x1x128_2 b))

/-- The rows entering the second layer: the first layer's output cut off below at zero, times the second matrix. -/
def hidden2 (x : FVec F S1x100000x256 .f32) (W1 : FVec F S256x128 .f32) (b1 : FVec F S128 .f32)
    (W2 : FVec F S128x128 .f32) : FVec F S1x100000x128 .f32 :=
  Host.dotGeneral dot_S1x100000x128_S128x128_S1x100000x128_2_0_01_1_n_n none
    (maximumf
      (convWith (degOf iotaV) (Host.dotGeneral dot_S1x100000x256_S256x128_S1x100000x128_2_0_01_1_n_n none x W1) iotaV iotaV b1)
      (broadcastInDim S1x100000x128 ![] bcast_S_S1x100000x128 (constant S_ .f32 0x00000000#32)))
    W2

/-- The reference program's result as a function of its five arguments. -/
def refOut (x : FVec F S1x100000x256 .f32) (W1 : FVec F S256x128 .f32) (b1 : FVec F S128 .f32)
    (W2 : FVec F S128x128 .f32) (b2 : FVec F S128 .f32) : FVec F S1x100000x128 .f32 :=
  convWith (degOf iotaV) (hidden2 x W1 b1 W2) iotaV iotaV b2

end Cert.ReferenceIdeal.Hand

end
-- ==== Proof.RefRead.lean ====
/-
  What the reference program's operations leave in the buffers that matter, as functions of the contents they start
  from. After the first stretch: the rows entering the second layer, the two position vectors of the second layer, and
  the second layer's count vector; the arguments untouched. After the second stretch, from any contents: the result is
  one layer applied to those four buffers and the last bias. Together: the result is the two-layer function of the five
  arguments.
-/
import proofs.«141814_g14336600834353_cont_week2b_369_2_alg».proof.Proof.RefOpsTable
import proofs.«141814_g14336600834353_cont_week2b_369_2_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## After the first stretch -/

set_option maxRecDepth 8192 in
set_option maxHeartbeats 40000000 in
/-- The rows entering the second layer. -/
theorem first_rows (V : Valuation τ sig (Elt F)) :
    after ops0 V (main_v41 : DevRef τ sig)
      = hidden2 (V (main_arg0 : DevRef τ sig)) (V (main_arg1 : DevRef τ sig)) (V (main_arg2 : DevRef τ sig))
          (V (main_arg3 : DevRef τ sig)) := by
  after_results_simp
  rfl

set_option maxRecDepth 8192 in
set_option maxHeartbeats 40000000 in
/-- The second layer's senders: the positions 0 … 99999. -/
theorem first_senders (V : Valuation τ sig (Elt F)) : after ops0 V (main_v42 : DevRef τ sig) = iotaV := by
  after_results_simp
  rfl

set_option maxRecDepth 8192 in
set_option maxHeartbeats 40000000 in
/-- The second layer's receivers: the positions 0 … 99999. -/
theorem first_receivers (V : Valuation τ sig (Elt F)) : after ops0 V (main_v43 : DevRef τ sig) = iotaV := by
  after_results_simp
  rfl

set_option maxRecDepth 8192 in
set_option maxHeartbeats 40000000 in
/-- The second layer's count vector. -/
theorem first_counts (V : Valuation τ sig (Elt F)) : after ops0 V (main_v47 : DevRef τ sig) = degOf iotaV := by
  after_results_simp
  rfl

set_option maxRecDepth 8192 in
set_option maxHeartbeats 40000000 in
theorem first_arg0 (V : Valuation τ sig (Elt F)) : after ops0 V (main_arg0 : DevRef τ sig) = V (main_arg0 : DevRef τ sig) := by
  after_results_simp
set_option maxRecDepth 8192 in
set_option maxHeartbeats 40000000 in
theorem first_arg1 (V : Valuation τ sig (Elt F)) : after ops0 V (main_arg1 : DevRef τ sig) = V (main_arg1 : DevRef τ sig) := by
  after_results_simp
set_option maxRecDepth 8192 in
set_option maxHeartbeats 40000000 in
theorem first_arg2 (V : Valuation τ sig (Elt F)) : after ops0 V (main_arg2 : DevRef τ sig) = V (main_arg2 : DevRef τ sig) := by
  after_results_simp
set_option maxRecDepth 8192 in
set_option maxHeartbeats 40000000 in
theorem first_arg3 (V : Valuation τ sig (Elt F)) : after ops0 V (main_arg3 : DevRef τ sig) = V (main_arg3 : DevRef τ sig) := by
  after_results_simp
set_option maxRecDepth 8192 in
set_option maxHeartbeats 40000000 in
theorem first_arg4 (V : Valuation τ sig (Elt F)) : after ops0 V (main_arg4 : DevRef τ sig) = V (main_arg4 : DevRef τ sig) := by
  after_results_simp

/-! ## After the second stretch -/

set_option maxRecDepth 8192 in
set_option maxHeartbeats 40000000 in
/-- The result: one layer over the four buffers the first stretch left and the last bias. -/
theorem second_result (W : Valuation τ sig (Elt F)) :
    after ops1 W (main_v80 : DevRef τ sig)
      = convWith (W (main_v47 : DevRef τ sig)) (W (main_v41 : DevRef τ sig)) (W (main_v42 : DevRef τ sig))
          (W (main_v43 : DevRef τ sig)) (W (main_arg4 : DevRef τ sig)) := by
  after_results_simp
  rfl

set_option maxRecDepth 8192 in
set_option maxHeartbeats 40000000 in
theorem second_arg0 (W : Valuation τ sig (Elt F)) : after ops1 W (main_arg0 : DevRef τ sig) = W (main_arg0 : DevRef τ sig) := by
  after_results_simp
set_option maxRecDepth 8192 in
set_option maxHeartbeats 40000000 in
theorem second_arg1 (W : Valuation τ sig (Elt F)) : after ops1 W (main_arg1 : DevRef τ sig) = W (main_arg1 : DevRef τ sig) := by
  after_results_simp
set_option maxRecDepth 8192 in
set_option maxHeartbeats 40000000 in
theorem second_arg2 (W : Valuation τ sig (Elt F)) : after ops1 W (main_arg2 : DevRef τ sig) = W (main_arg2 : DevRef τ sig) := by
  after_results_simp
set_option maxRecDepth 8192 in
set_option maxHeartbeats 40000000 in
theorem second_arg3 (W : Valuation τ sig (Elt F)) : after ops1 W (main_arg3 : DevRef τ sig) = W (main_arg3 : DevRef τ sig) := by
  after_results_simp
set_option maxRecDepth 8192 in
set_option maxHeartbeats 40000000 in
theorem second_arg4 (W : Valuation τ sig (Elt F)) : after ops1 W (main_arg4 : DevRef τ sig) = W (main_arg4 : DevRef τ sig) := by
  after_results_simp

/-! ## Both stretches -/

/-- The result buffer after the whole program: the two-layer function of the five arguments. -/
theorem result_eq (V : Valuation τ sig (Elt F)) :
    after ops1 (after ops0 V) (main_v80 : DevRef τ sig)
      = refOut (V (main_arg0 : DevRef τ sig)) (V (main_arg1 : DevRef τ sig)) (V (main_arg2 : DevRef τ sig))
          (V (main_arg3 : DevRef τ sig)) (V (main_arg4 : DevRef τ sig)) := by
  rw [second_result, first_counts, first_rows, first_senders, first_receivers, first_arg4]
  rfl

theorem arg0_eq (V : Valuation τ sig (Elt F)) : after ops1 (after ops0 V) (main_arg0 : DevRef τ sig) = V (main_arg0 : DevRef τ sig) := by
  rw [second_arg0, first_arg0]
theorem arg1_eq (V : Valuation τ sig (Elt F)) : after ops1 (after ops0 V) (main_arg1 : DevRef τ sig) = V (main_arg1 : DevRef τ sig) := by
  rw [second_arg1, first_arg1]
theorem arg2_eq (V : Valuation τ sig (Elt F)) : after ops1 (after ops0 V) (main_arg2 : DevRef τ sig) = V (main_arg2 : DevRef τ sig) := by
  rw [second_arg2, first_arg2]
theorem arg3_eq (V : Valuation τ sig (Elt F)) : after ops1 (after ops0 V) (main_arg3 : DevRef τ sig) = V (main_arg3 : DevRef τ sig) := by
  rw [second_arg3, first_arg3]
theorem arg4_eq (V : Valuation τ sig (Elt F)) : after ops1 (after ops0 V) (main_arg4 : DevRef τ sig) = V (main_arg4 : DevRef τ sig) := by
  rw [second_arg4, first_arg4]

end Cert.ReferenceIdeal.Hand

end
-- ==== Proof.LibScatterAddRows.lean ====
/-
  Rows added into a table at the rows a column of positions names, read at an entry, for any sizes.

  The updates are an `E × C` array, one row per position; the positions are an `E × 1` column of integers; the operand is
  an `N × C` table. Update row `e` is added into the table's row `idx[e, 0]`, read as a signed integer and NOT clamped: a
  position outside `[0, N)` adds nothing. Over the extended reals the result at `(r, p)` is therefore the operand's
  entry plus the sum, over the positions `e` whose start is exactly `r`, of the update's entry `(e, p)`: the column
  coordinate passes through untouched, which is why the same accumulation done on a wider table restricts to it
  column by column.
-/
import Idealize.ShloMosaic.Lib.ValueIdx
import Idealize.ShloMosaic.PureOps.Ideal

noncomputable section

open scoped BigOperators

namespace Cert.Lib.ScatterAddRows

open Idealize.ShloMosaic Idealize.ShloMosaic.ValueIdx

/-- The dimension numbers of a row accumulation: operand `[N, C]`, positions `[E, 1]` (the unit axis holds the one
    component of a start index, which addresses the operand's rows), updates `[E, C]`; each update window is one whole
    row. -/
abbrev rowsScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- On the row axis the window of update `(e, q)` starts at the position `idx[e, 0]`, read signed. -/
theorem start_row : (rowsScatter N E C wf).start (ix2 e q) idx 0 = (idx (ix2 e ⟨0, Nat.one_pos⟩)).toInt := by
  unfold ScatterDims.start
  rw [dif_pos (show (0 : Fin 2) ∈ (rowsScatter N E C wf).scatterDimsToOperandDims from List.mem_singleton.mpr rfl)]
  have hsi : (rowsScatter N E C wf).siIdx (ix2 e q) ⟨List.idxOf (0 : Fin 2) (rowsScatter N E C wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis it starts at zero: no position component addresses the columns. -/
theorem start_col : (rowsScatter N E C wf).start (ix2 e q) idx 1 = 0 := by
  unfold ScatterDims.start
  have h10 : ¬ (1 : Fin 2) ∈ ([0] : List (Fin 2)) := by decide
  rw [dif_neg (show ¬ (1 : Fin 2) ∈ (rowsScatter N E C wf).scatterDimsToOperandDims from h10)]

/-- The row axis is inserted: the window has no extent along it. -/
theorem window_row : (rowsScatter N E C wf).window (ix2 e q) 0 = 0 := by
  unfold ScatterDims.window
  have h0 : ¬ (0 : Fin 2) ∈ (rowsScatter N E C wf).sKept := by
    simp [ScatterDims.sKept, Shape.kept, List.mem_filter]
  rw [dif_neg h0]

/-- Along the columns the window coordinate of update `(e, q)` is `q`. -/
theorem window_col : (rowsScatter N E C wf).window (ix2 e q) 1 = q.val := by
  unfold ScatterDims.window
  have h1 : (1 : Fin 2) ∈ (rowsScatter N E C wf).sKept := by
    simp [ScatterDims.sKept, Shape.kept, List.mem_filter, List.mem_finRange]
  rw [dif_pos h1]
  have key : ∀ (k : Nat) (hk : k < ([1] : List (Fin 2)).length), (ix2 e q (([1] : List (Fin 2))[k]'hk)).val = q.val := by
    intro k hk
    have hk0 : k = 0 := by
      have : k < 1 := hk
      omega
    subst hk0; rfl
  exact key _ _

/-- WHERE AN UPDATE LANDS: update `(e, q)` lands on `(r, p)` exactly when its position is `r` and its column is `p`. -/
theorem resultIdx?_eq_some_iff (r : Fin N) (p : Fin C) :
    (rowsScatter N E C wf).resultIdx? (ix2 e q) idx = some (ix2 r p)
      ↔ (idx (ix2 e ⟨0, Nat.one_pos⟩)).toInt = (r.val : Int) ∧ q = p := by
  have hN : (⟨2, ![N, C]⟩ : Shape).size 0 = N := rfl
  have hC : (⟨2, ![N, C]⟩ : Shape).size 1 = C := rfl
  have hr := r.isLt
  have hq := q.isLt
  unfold ScatterDims.resultIdx?
  split
  · rename_i h
    rw [Option.some.injEq]
    constructor
    · intro hf
      have h0 := congrArg (fun f => (f 0).val) hf
      have h1 := congrArg (fun f => (f 1).val) hf
      simp only [start_row, start_col, window_row, window_col] at h0 h1
      have hh := (h 0).1
      rw [start_row, window_row] at hh
      have e0 : ((ix2 r p : (⟨2, ![N, C]⟩ : Shape).Idx) 0).val = r.val := rfl
      have e1 : ((ix2 r p : (⟨2, ![N, C]⟩ : Shape).Idx) 1).val = p.val := rfl
      rw [e0] at h0
      rw [e1] at h1
      refine ⟨by omega, Fin.ext (by omega)⟩
    · rintro ⟨hs, rfl⟩
      funext a
      refine Fin.ext ?_
      match a with
      | ⟨0, _⟩ =>
        show ((rowsScatter N E C wf).start (ix2 e q) idx 0 + ((rowsScatter N E C wf).window (ix2 e q) 0 : Nat)).toNat = r.val
        rw [start_row, window_row, hs]; omega
      | ⟨1, _⟩ =>
        show ((rowsScatter N E C wf).start (ix2 e q) idx 1 + ((rowsScatter N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (rowsScatter N E C wf).start (ix2 e q) idx 0 + ((rowsScatter N E C wf).window (ix2 e q) 0 : Nat)
          ∧ (rowsScatter N E C wf).start (ix2 e q) idx 0 + ((rowsScatter N E C wf).window (ix2 e q) 0 : Nat) < ((⟨2, ![N, C]⟩ : Shape).size 0 : Nat)
        rw [start_row, window_row, hs, hN]; omega
      | ⟨1, _⟩ =>
        show 0 ≤ (rowsScatter N E C wf).start (ix2 e q) idx 1 + ((rowsScatter N E C wf).window (ix2 e q) 1 : Nat)
          ∧ (rowsScatter N E C wf).start (ix2 e q) idx 1 + ((rowsScatter N E C wf).window (ix2 e q) 1 : Nat) < ((⟨2, ![N, C]⟩ : Shape).size 1 : Nat)
        rw [start_col, window_col, hC]; omega

end

/-- THE ACCUMULATION READ AT `(r, p)`: the operand's entry plus the sum, over the positions that name row `r`, of the
    update's entry in column `p`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (r : Fin N) (p : Fin C) :
    Host.scatterAdd (rowsScatter N E C wf) x idx upd (ix2 r p)
      = x (ix2 r p) + ∑ e : Fin E, if (idx (ix2 e ⟨0, Nat.one_pos⟩)).toInt = (r.val : Int) then upd (ix2 e p) else 0 := by
  show Ideal.hostScatterAdd (rowsScatter N E C wf) x idx upd (ix2 r p) = _
  unfold Ideal.hostScatterAdd
  congr 1
  rw [Finset.sum_filter, sum_idx2]
  refine Finset.sum_congr rfl fun e _ => ?_
  simp only [resultIdx?_eq_some_iff]
  by_cases hs : (idx (ix2 e ⟨0, Nat.one_pos⟩)).toInt = (r.val : Int)
  · simp only [hs, true_and, if_true]
    rw [Finset.sum_ite_eq' Finset.univ p (fun q => upd (ix2 e q))]
    simp
  · simp only [hs, false_and, if_false, Finset.sum_const_zero]

end Cert.Lib.ScatterAddRows

end
-- ==== Proof.LibTakeRows.lean ====
/-
  Looking rows up in a table: two operations read at an entry, for any sizes.

  A lookup of rows of an `N × C` table at a column of `R` start positions gives an `R × C` array whose row `r` is the
  table's row at position `r`'s start index, that index read as a signed integer and clamped into `[0, N − 1]`. And a
  conjunction taken along some axes of an array of one-bit flags, started from the flag one, is one wherever every flag
  is one.
-/
import Idealize.ShloMosaic.Lib.ValueIdx
import Idealize.ShloMosaic.Lib.ReduceAll

noncomputable section

namespace Cert.Lib.TakeRows

open Idealize.ShloMosaic Idealize.ShloMosaic.ValueIdx

/-! ## A conjunction of flags that are all one -/

/-- A left fold of the conjunction over flags that are all one, started from one, is one. -/
theorem foldl_andi_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_all_one f l fun n hn => h n (List.mem_cons_of_mem _ hn)

/-- A conjunction along any axes of an array of flags that are all one, started from one, is one at every result
    index. -/
theorem reduce_andi_all_one {s t u : Shape} {axes : List (Fin s.rank)} (x : s.Idx → BitVec 1) (init : u.Idx → BitVec 1)
    (h : s.ReducesTo axes t) (hu : 0 < u.numel) (j : t.Idx) (hx : ∀ i, x i = 1#1) (hinit : init (Shape.Idx.first hu) = 1#1) :
    Host.reduce IntOp.andi x init h hu j = 1#1 := by
  rw [Host.reduce_eq_foldl, hinit]
  exact foldl_andi_all_one x _ fun i _ => hx i

/-! ## Rows of a table at a column of start positions -/

section Rows
variable {α : Type}

/-- The dimension numbers of a row lookup: operand `[N, C]`, start positions `[R, 1]` (the unit axis holds the one
    component of a start index, which addresses the operand's rows), result `[R, C]`; each slice is one whole row. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE LOOKUP READ AT `(r, p)`: the table at the row `idx[r, 0]` names — read signed and clamped into `[0, N − 1]` —
    and column `p`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (p : Fin C) :
    Host.gather (rowsDims N R C wf) x idx (ix2 r p)
      = x (ix2 ⟨min (idx (ix2 r ⟨0, Nat.one_pos⟩)).toInt.toNat (N - 1), by omega⟩ p) := by
  unfold Host.gather
  congr 1
  funext a
  refine Fin.ext ?_
  match a with
  | ⟨0, _⟩ =>
    show (rowsDims N R C wf).start (ix2 r p) idx 0 + (rowsDims N R C wf).batchCoord (ix2 r p) 0
      + (rowsDims N R C wf).offCoord (ix2 r p) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 r p) ⟨List.idxOf (0 : Fin 2) (rowsDims N R C wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨1, _⟩ =>
    show (rowsDims N R C wf).start (ix2 r p) idx 1 + (rowsDims N R C wf).batchCoord (ix2 r p) 1
      + (rowsDims N R C wf).offCoord (ix2 r p) 1 = p.val
    rw [GatherDims.batchCoord_eq_zero _ _ _ List.not_mem_nil]
    unfold GatherDims.start
    have h10 : ¬ (1 : Fin 2) ∈ ([0] : List (Fin 2)) := by decide
    rw [dif_neg (show ¬ (1 : Fin 2) ∈ (rowsDims N R C wf).startIndexMap from h10)]
    unfold GatherDims.offCoord
    rw [dif_pos (show (1 : Fin 2) ∈ (rowsDims N R C wf).sKept from
      (GatherDims.mem_sKept _ _).mpr ⟨h10, List.not_mem_nil⟩)]
    have key : ∀ (q : Nat) (hq : q < ([1] : List (Fin 2)).length), (ix2 r p (([1] : List (Fin 2))[q]'hq)).val = p.val := by
      intro q hq
      have hq0 : q = 0 := by
        have : q < 1 := hq
        omega
      subst hq0; rfl
    simp only [Nat.zero_add]
    exact key _ _

end Rows

end Cert.Lib.TakeRows

end
-- ==== Proof.LibScatterAddPoints.lean ====
/-
  Points added into a vector at the positions a column of integers names, read at an entry, for any sizes.

  The updates are a vector of `E` numbers, one per position; the positions are an `E × 1` column of integers; the operand
  is a vector of `N` numbers. Update `e` is added into the operand's entry `idx[e, 0]`, read as a signed integer and NOT
  clamped: a position outside `[0, N)` adds nothing. Over the extended reals the result at `r` is therefore the operand's
  entry plus the sum, over the positions `e` whose start is exactly `r`, of the update `e`.
-/
import Idealize.ShloMosaic.Lib.ValueIdx
import Idealize.ShloMosaic.PureOps.Ideal

noncomputable section

open scoped BigOperators

namespace Cert.Lib.ScatterAddPoints

open Idealize.ShloMosaic Idealize.ShloMosaic.ValueIdx

/-- The dimension numbers of a pointwise accumulation: operand `[N]`, positions `[E, 1]` (the unit axis holds the one
    component of a start index, which addresses the operand's only axis), updates `[E]`; each update window is a
    single entry, so the updates have no window axis and the operand's axis is inserted. -/
abbrev pointsScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## A sum over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Where an update lands -/

section
variable {N E w : Nat} (wf : ScatterDims.WF ⟨1, ![N]⟩ ⟨2, ![E, 1]⟩ ⟨1, ![E]⟩ [] [0] [0] 1)
  (idx : IVec ⟨2, ![E, 1]⟩ w) (e : Fin E)

/-- The window of update `e` starts at the position `idx[e, 0]`, read signed. -/
theorem start_pt : (pointsScatter N E wf).start (ix1 e) idx 0 = (idx (ix2 e ⟨0, Nat.one_pos⟩)).toInt := by
  unfold ScatterDims.start
  rw [dif_pos (show (0 : Fin 1) ∈ (pointsScatter N E wf).scatterDimsToOperandDims from List.mem_singleton.mpr rfl)]
  have hsi : (pointsScatter N E wf).siIdx (ix1 e) ⟨List.idxOf (0 : Fin 1) (pointsScatter N E wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- The operand's axis is inserted: the window has no extent along it. -/
theorem window_pt : (pointsScatter N E wf).window (ix1 e) 0 = 0 := by
  unfold ScatterDims.window
  have h0 : ¬ (0 : Fin 1) ∈ (pointsScatter N E wf).sKept := by
    simp [ScatterDims.sKept, Shape.kept, List.mem_filter]
  rw [dif_neg h0]

/-- WHERE AN UPDATE LANDS: update `e` lands on entry `r` exactly when its position, read signed, is `r`. -/
theorem resultIdx?_eq_some_iff (r : Fin N) :
    (pointsScatter N E wf).resultIdx? (ix1 e) idx = some (ix1 r)
      ↔ (idx (ix2 e ⟨0, Nat.one_pos⟩)).toInt = (r.val : Int) := by
  have hN : (⟨1, ![N]⟩ : Shape).size 0 = N := rfl
  have hr := r.isLt
  unfold ScatterDims.resultIdx?
  split
  · rename_i h
    rw [Option.some.injEq]
    constructor
    · intro hf
      have h0 := congrArg (fun f => (f 0).val) hf
      simp only [start_pt, window_pt] at h0
      have hh := (h 0).1
      rw [start_pt, window_pt] at hh
      have e0 : ((ix1 r : (⟨1, ![N]⟩ : Shape).Idx) 0).val = r.val := rfl
      rw [e0] at h0
      omega
    · intro hs
      funext a
      refine Fin.ext ?_
      match a with
      | ⟨0, _⟩ =>
        show ((pointsScatter N E wf).start (ix1 e) idx 0 + ((pointsScatter N E wf).window (ix1 e) 0 : Nat)).toNat = r.val
        rw [start_pt, window_pt, hs]; omega
  · rename_i h
    constructor
    · intro hf; exact absurd hf (by simp)
    · intro hs
      refine absurd (fun a => ?_) h
      match a with
      | ⟨0, _⟩ =>
        show 0 ≤ (pointsScatter N E wf).start (ix1 e) idx 0 + ((pointsScatter N E wf).window (ix1 e) 0 : Nat)
          ∧ (pointsScatter N E wf).start (ix1 e) idx 0 + ((pointsScatter N E wf).window (ix1 e) 0 : Nat) < ((⟨1, ![N]⟩ : Shape).size 0 : Nat)
        rw [start_pt, window_pt, hs, hN]; omega

end

/-- THE ACCUMULATION READ AT `r`: the operand's entry plus the sum, over the positions that name `r`, of the updates. -/
theorem scatterAdd_points_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (r : Fin N) :
    Host.scatterAdd (pointsScatter N E wf) x idx upd (ix1 r)
      = x (ix1 r) + ∑ e : Fin E, if (idx (ix2 e ⟨0, Nat.one_pos⟩)).toInt = (r.val : Int) then upd (ix1 e) else 0 := by
  show Ideal.hostScatterAdd (pointsScatter N E wf) x idx upd (ix1 r) = _
  unfold Ideal.hostScatterAdd
  congr 1
  rw [Finset.sum_filter, sum_idx1]
  refine Finset.sum_congr rfl fun e _ => ?_
  simp only [resultIdx?_eq_some_iff]

end Cert.Lib.ScatterAddPoints

end
-- ==== Proof.LibGatherPoints.lean ====
/-
  Entries of a vector looked up at a column of positions, read at an entry, for any sizes.

  A lookup of entries of a vector of `N` numbers at an `R × 1` column of start positions gives a vector of `R` numbers
  whose entry `r` is the operand's entry at position `r`'s start index, that index read as a signed integer and clamped
  into `[0, N − 1]`: a negative index reads entry `0`, an index past the end reads the last entry.
-/
import Idealize.ShloMosaic.Lib.ValueIdx
import Idealize.ShloMosaic.PureOps.Ideal

noncomputable section

namespace Cert.Lib.GatherPoints

open Idealize.ShloMosaic Idealize.ShloMosaic.ValueIdx

section Points
variable {α : Type}

/-- The dimension numbers of an entry lookup: operand `[N]`, start positions `[R, 1]` (the unit axis holds the one
    component of a start index, which addresses the operand's only axis), result `[R]`; each slice is a single entry,
    its one axis collapsed, so the result has no offset axis. -/
abbrev pointsDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE LOOKUP READ AT `r`: the operand at the entry `idx[r, 0]` names — read signed and clamped into `[0, N − 1]`. -/
theorem gather_points_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (pointsDims N R wf) x idx (ix1 r)
      = x (ix1 ⟨min (idx (ix2 r ⟨0, Nat.one_pos⟩)).toInt.toNat (N - 1), by omega⟩) := by
  unfold Host.gather
  congr 1
  funext a
  refine Fin.ext ?_
  match a with
  | ⟨0, _⟩ =>
    show (pointsDims N R wf).start (ix1 r) idx 0 + (pointsDims N R wf).batchCoord (ix1 r) 0
      + (pointsDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (pointsDims N R wf).startIndexMap from List.mem_singleton.mpr rfl)]
    have hsi : (pointsDims N R wf).siIdx (ix1 r) ⟨List.idxOf (0 : Fin 1) (pointsDims N R wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl

end Points

end Cert.Lib.GatherPoints

end
-- ==== Proof.LibGatherStackRows.lean ====
/-
  Rows of a stack of one table looked up at a column of positions, read at an entry, for any sizes.

  The operand is a `1 × N × C` array: a stack holding a single `N × C` table. A lookup of its rows at an `R × 1` column of
  start positions gives a `1 × R × C` array whose row `r` (in the only layer) is the table's row at position `r`'s start
  index, that index read as a signed integer and clamped into `[0, N − 1]`. The layer coordinate and the column
  coordinate pass through untouched: each slice spans the whole unit layer axis and a whole row.
-/
import Idealize.ShloMosaic.Lib.ValueIdx
import Idealize.ShloMosaic.PureOps.Ideal

noncomputable section

namespace Cert.Lib.GatherStackRows

open Idealize.ShloMosaic Idealize.ShloMosaic.ValueIdx

section StackRows
variable {α : Type}

/-- The dimension numbers of a row lookup in a stack of one table: operand `[1, N, C]`, start positions `[R, 1]` (the
    unit axis holds the one component of a start index, which addresses the operand's row axis), result `[1, R, C]`;
    each slice is one whole row of the only layer, its row axis collapsed, its layer and column axes kept as the
    result's first and last axes. -/
abbrev stackRowsDims (N R C : Nat)
    (wf : GatherDims.WF ⟨3, ![1, N, C]⟩ ⟨2, ![R, 1]⟩ ⟨3, ![1, R, C]⟩ [0, 2] [1] [] [1] [] 1 ![1, 1, C]) :
    GatherDims ⟨3, ![1, N, C]⟩ ⟨2, ![R, 1]⟩ ⟨3, ![1, R, C]⟩ where
  offsetDims := [0, 2]
  collapsedSliceDims := [1]
  operandBatchingDims := []
  startIndicesBatchingDims := []
  startIndexMap := [1]
  indexVectorDim := 1
  sliceSizes := ![1, 1, C]
  wf := wf

/-- THE LOOKUP READ AT `(a, r, p)`: the stack at layer `a`, at the row `idx[r, 0]` names — read signed and clamped
    into `[0, N − 1]` — and column `p`. -/
theorem gather_stack_rows_apply {N R C w : Nat} (hN : 0 < N)
    (wf : GatherDims.WF ⟨3, ![1, N, C]⟩ ⟨2, ![R, 1]⟩ ⟨3, ![1, R, C]⟩ [0, 2] [1] [] [1] [] 1 ![1, 1, C])
    (x : (⟨3, ![1, N, C]⟩ : Shape).Idx → α) (idx : IVec ⟨2, ![R, 1]⟩ w) (a : Fin 1) (r : Fin R) (p : Fin C) :
    Host.gather (stackRowsDims N R C wf) x idx (ix3 a r p)
      = x (ix3 a ⟨min (idx (ix2 r ⟨0, Nat.one_pos⟩)).toInt.toNat (N - 1), by omega⟩ p) := by
  have h01 : ¬ (0 : Fin 3) ∈ ([1] : List (Fin 3)) := by decide
  have h21 : ¬ (2 : Fin 3) ∈ ([1] : List (Fin 3)) := by decide
  unfold Host.gather
  congr 1
  funext c
  refine Fin.ext ?_
  match c with
  | ⟨0, _⟩ =>
    show (stackRowsDims N R C wf).start (ix3 a r p) idx 0 + (stackRowsDims N R C wf).batchCoord (ix3 a r p) 0
      + (stackRowsDims N R C wf).offCoord (ix3 a r p) 0 = a.val
    rw [GatherDims.batchCoord_eq_zero _ _ _ List.not_mem_nil]
    unfold GatherDims.start
    rw [dif_neg (show ¬ (0 : Fin 3) ∈ (stackRowsDims N R C wf).startIndexMap from h01)]
    unfold GatherDims.offCoord
    rw [dif_pos (show (0 : Fin 3) ∈ (stackRowsDims N R C wf).sKept from
      (GatherDims.mem_sKept _ _).mpr ⟨h01, List.not_mem_nil⟩)]
    have hpos : (stackRowsDims N R C wf).sKept.idxOf (0 : Fin 3) = 0 := rfl
    have key : ∀ (q : Nat) (hq : q < ([0, 2] : List (Fin 3)).length), q = 0 →
        (ix3 a r p (([0, 2] : List (Fin 3))[q]'hq)).val = a.val := by
      intro q hq hq0
      subst hq0; rfl
    simp only [Nat.zero_add]
    exact key _ _ hpos
  | ⟨1, _⟩ =>
    show (stackRowsDims N R C wf).start (ix3 a r p) idx 1 + (stackRowsDims N R C wf).batchCoord (ix3 a r p) 1
      + (stackRowsDims N R C wf).offCoord (ix3 a r p) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (stackRowsDims N R C wf).startIndexMap from List.mem_singleton.mpr rfl)]
    have hsi : (stackRowsDims N R C wf).siIdx (ix3 a r p) ⟨List.idxOf (1 : Fin 3) (stackRowsDims N R C wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨2, _⟩ =>
    show (stackRowsDims N R C wf).start (ix3 a r p) idx 2 + (stackRowsDims N R C wf).batchCoord (ix3 a r p) 2
      + (stackRowsDims N R C wf).offCoord (ix3 a r p) 2 = p.val
    rw [GatherDims.batchCoord_eq_zero _ _ _ List.not_mem_nil]
    unfold GatherDims.start
    rw [dif_neg (show ¬ (2 : Fin 3) ∈ (stackRowsDims N R C wf).startIndexMap from h21)]
    unfold GatherDims.offCoord
    rw [dif_pos (show (2 : Fin 3) ∈ (stackRowsDims N R C wf).sKept from
      (GatherDims.mem_sKept _ _).mpr ⟨h21, List.not_mem_nil⟩)]
    have hpos : (stackRowsDims N R C wf).sKept.idxOf (2 : Fin 3) = 1 := rfl
    have key : ∀ (q : Nat) (hq : q < ([0, 2] : List (Fin 3)).length), q = 1 →
        (ix3 a r p (([0, 2] : List (Fin 3))[q]'hq)).val = p.val := by
      intro q hq hq1
      subst hq1; rfl
    simp only [Nat.zero_add]
    exact key _ _ hpos

end StackRows

end Cert.Lib.GatherStackRows

end
-- ==== Proof.LibIotaColumn.lean ====
/-
  The positions `0 … N − 1` as 32-bit words, kept as an `N × 1` column: what the usual index arithmetic does to them.

  A natural number below `2 ^ 31`, written as a 32-bit word, reads back as itself when the word is read as a signed
  integer. Hence such a word is not negative, is at least zero, compares by `≤` as the numbers do, and — read signed
  and clamped into `[0, N − 1]` with `n < N ≤ 2 ^ 31` — gives `n` again. On vectors: a vector of `N` words stretched to an
  `N × 1` column reads the vector's entry on its row; the "wrap" that adds a constant to the negative entries leaves the
  positions `0 … N − 1` alone; and the flag "`0 ≤ c ≤ N − 1`" is one on a column holding the positions.
-/
import Idealize.ShloMosaic.Lib.ValueIdx
import Idealize.ShloMosaic.PureOps.Ideal
import Idealize.ShloMosaic.Lib.IdealHost
import Idealize.ShloMosaic.Lib.Pipeline.Value

noncomputable section

namespace Cert.Lib.IotaColumn

open Idealize.ShloMosaic Idealize.ShloMosaic.ValueIdx

/-! ## A small natural number as a 32-bit word -/

/-- A natural number below `2 ^ 31`, as a 32-bit word read signed, is itself. -/
theorem toInt_ofNat_of_lt (n : Nat) (h : n < 2 ^ 31) : (BitVec.ofNat 32 n).toInt = (n : Int) := by
  rw [BitVec.toInt_eq_toNat_cond, BitVec.toNat_ofNat]
  have h1 : n % 2 ^ 32 = n := Nat.mod_eq_of_lt (by omega)
  rw [h1]
  split
  · rfl
  · omega

/-- Such a word is not negative: the signed comparison "below zero" answers zero. -/
theorem slt_ofNat_zero (n : Nat) (h : n < 2 ^ 31) : IntOp.cmpi .slt (BitVec.ofNat 32 n) 0#32 = 0#1 := by
  show BitVec.ofBool ((BitVec.ofNat 32 n).slt 0#32) = 0#1
  have hb : (BitVec.ofNat 32 n).slt 0#32 = false := by
    rw [BitVec.slt, toInt_ofNat_of_lt n h]
    simp
  rw [hb]; rfl

/-- Such a word is at least zero: the signed comparison "at least zero" answers one. -/
theorem sge_ofNat_zero (n : Nat) (h : n < 2 ^ 31) : IntOp.cmpi .sge (BitVec.ofNat 32 n) 0#32 = 1#1 := by
  show BitVec.ofBool ((0#32).sle (BitVec.ofNat 32 n)) = 1#1
  have hb : (0#32).sle (BitVec.ofNat 32 n) = true := by
    rw [BitVec.sle, toInt_ofNat_of_lt n h]
    simp
  rw [hb]; rfl

/-- Two such words compare, signed, as the numbers do: `n ≤ k` gives the answer one. -/
theorem sle_ofNat_ofNat (n k : Nat) (hnk : n ≤ k) (hk : k < 2 ^ 31) :
    IntOp.cmpi .sle (BitVec.ofNat 32 n) (BitVec.ofNat 32 k) = 1#1 := by
  show BitVec.ofBool ((BitVec.ofNat 32 n).sle (BitVec.ofNat 32 k)) = 1#1
  have hb : (BitVec.ofNat 32 n).sle (BitVec.ofNat 32 k) = true := by
    rw [BitVec.sle, toInt_ofNat_of_lt n (by omega), toInt_ofNat_of_lt k hk]
    simp [hnk]
  rw [hb]; rfl

/-- A position `n < N ≤ 2 ^ 31`, read signed off its word and clamped into `[0, N − 1]`, is `n`. -/
theorem clamp_ofNat (n N : Nat) (hn : n < N) (hN : N ≤ 2 ^ 31) : min (BitVec.ofNat 32 n).toInt.toNat (N - 1) = n := by
  rw [toInt_ofNat_of_lt n (by omega), Int.toNat_natCast]
  omega

/-! ## The vector forms, read at an index -/

/-- A vector of `N` entries of any kind stretched to an `N × 1` column reads, at row `e`, the vector's entry `e`. -/
theorem col_apply_any {α : Type} {N : Nat} (hcol : (⟨1, ![N]⟩ : Shape).BroadcastsInDim ⟨2, ![N, 1]⟩ ![0])
    (v : (⟨1, ![N]⟩ : Shape).Idx → α) (e : Fin N) (z : Fin 1) :
    broadcastInDim ⟨2, ![N, 1]⟩ ![0] hcol v (ix2 e z) = v (ix1 e) := by
  refine broadcastInDim_apply _ hcol v (ix2 e z) (ix1 e) fun a => ?_
  match a with
  | ⟨0, _⟩ =>
    show e.val = if N = 1 then 0 else e.val
    have he := e.isLt
    split
    · omega
    · rfl

/-- The same for a vector of `w`-bit words. -/
theorem col_apply {N w : Nat} (hcol : (⟨1, ![N]⟩ : Shape).BroadcastsInDim ⟨2, ![N, 1]⟩ ![0])
    (v : IVec ⟨1, ![N]⟩ w) (e : Fin N) (z : Fin 1) :
    broadcastInDim ⟨2, ![N, 1]⟩ ![0] hcol v (ix2 e z) = v (ix1 e) :=
  col_apply_any hcol v e z

/-- The wrap "add `K` where the entry is negative" leaves the positions `0 … N − 1` as they are: none is negative. -/
theorem wrap_iota_apply {N : Nat} (hN : N ≤ 2 ^ 31) (h0 : (⟨0, ![]⟩ : Shape).BroadcastsInDim ⟨1, ![N]⟩ ![])
    (K : BitVec 32) (n : Fin N) :
    select (cmpi .slt (iotaInDim ⟨1, ![N]⟩ 32 0) (broadcastInDim ⟨1, ![N]⟩ ![] h0 (constantI ⟨0, ![]⟩ 32 0#32)))
        (addi (iotaInDim ⟨1, ![N]⟩ 32 0) (broadcastInDim ⟨1, ![N]⟩ ![] h0 (constantI ⟨0, ![]⟩ 32 K)))
        (iotaInDim ⟨1, ![N]⟩ 32 0) (ix1 n)
      = BitVec.ofNat 32 n.val := by
  have hn := n.isLt
  show Scalar.select (IntOp.cmpi .slt (BitVec.ofNat 32 n.val) 0#32) (IntOp.addi (BitVec.ofNat 32 n.val) K)
    (BitVec.ofNat 32 n.val) = BitVec.ofNat 32 n.val
  rw [slt_ofNat_zero n.val (by omega)]
  unfold Scalar.select
  exact if_neg (by decide)

/-- The flag "`0 ≤ c` and `c ≤ M`" with `M` the word of `N − 1` is one at a row of `c` that holds its own position. -/
theorem inrange_apply {N : Nat} (hN : N ≤ 2 ^ 31)
    (h00 : (⟨0, ![]⟩ : Shape).BroadcastsInDim ⟨2, ![N, 1]⟩ ![])
    (h11 : (⟨2, ![1, 1]⟩ : Shape).BroadcastsInDim ⟨2, ![N, 1]⟩ ![0, 1])
    (h1 : (⟨1, ![1]⟩ : Shape).BroadcastsInDim ⟨2, ![1, 1]⟩ ![1])
    (M : BitVec 32) (hM : M = BitVec.ofNat 32 (N - 1))
    (c : IVec ⟨2, ![N, 1]⟩ 32) (e : Fin N) (z : Fin 1) (hc : c (ix2 e z) = BitVec.ofNat 32 e.val) :
    andi (cmpi .sge c (broadcastInDim ⟨2, ![N, 1]⟩ ![] h00 (constantI ⟨0, ![]⟩ 32 0#32)))
        (cmpi .sle c (broadcastInDim ⟨2, ![N, 1]⟩ ![0, 1] h11
          (broadcastInDim ⟨2, ![1, 1]⟩ ![1] h1 (constantI ⟨1, ![1]⟩ 32 M)))) (ix2 e z)
      = 1#1 := by
  have he := e.isLt
  show IntOp.andi (IntOp.cmpi .sge (c (ix2 e z)) 0#32) (IntOp.cmpi .sle (c (ix2 e z)) M) = 1#1
  rw [hc, hM, sge_ofNat_zero e.val (by omega), sle_ofNat_ofNat e.val (N - 1) (by omega) (by omega)]
  rfl

end Cert.Lib.IotaColumn

end
-- ==== Proof.LibUnitWeight.lean ====
/-
  A count that is one has weight one: one over the square root of one, over the extended reals.

  The f32 word `0x3F800000` is the extended real one and the word of all zeros is zero. One is greater than zero, so
  the comparison "greater than zero" answers the flag one; the square root of one is one and the quotient of one by
  one is one. Hence the weight "where the count is positive, one over its square root, else a fallback" is one wherever
  the count is one, whatever the fallback.
-/
import Idealize.ShloMosaic.Lib.ValueIdx
import Idealize.ShloMosaic.PureOps.Ideal
import Idealize.ShloMosaic.PureOps.Ideal.Laws
import Idealize.ShloMosaic.Lib.IdealHost

noncomputable section

namespace Cert.Lib.UnitWeight

open Idealize.ShloMosaic Idealize.ShloMosaic.ValueIdx

/-! ## The two words -/

/-- The f32 word `0x3F800000` is the extended real one. -/
theorem ofBits_one_f32 : Ideal.ofBits .f32 0x3F800000#32 = 1 := Ideal.ofBits_one_f32

/-- The zero word plus the word of one is one. -/
theorem zero_add_one_word : Ideal.ofBits .f32 0x00000000#32 + Ideal.ofBits .f32 0x3F800000#32 = 1 := by
  rw [Ideal.ofBits_zero_f32, Ideal.ofBits_one_f32, zero_add]

/-! ## The scalar operations at one -/

/-- One is greater than zero: the ordered comparison answers the flag one. -/
theorem cmpf_ogt_one_zero : FloatOps.cmpf (F := Ideal) (φ := .f32) .ogt (1 : EReal) 0 = 1#1 := by
  rw [Ideal.cmpf_def]
  show BitVec.ofBool (decide ((0 : EReal) < 1)) = 1#1
  rw [decide_eq_true (zero_lt_one : (0 : EReal) < 1)]
  rfl

/-- The square root of one is one. -/
theorem sqrt_one : Ideal.sqrt 1 = 1 := by
  rw [show (1 : EReal) = ((1 : ℝ) : EReal) from rfl, Ideal.sqrt_coe, if_neg (by norm_num), Real.sqrt_one]

/-- The host's square root, at one, is one. -/
theorem hostSqrt_one {φ : FTy} : FloatOps.hostUnary (F := Ideal) (φ := φ) .sqrt (1 : EReal) = 1 := by
  rw [Ideal.hostUnary_sqrt_def, sqrt_one]

/-- The quotient of one by one is one. -/
theorem div_one_one : Ideal.div 1 1 = 1 := by
  unfold Ideal.div
  rw [if_neg one_ne_zero, inv_one, mul_one]

/-- The host's quotient of one by one is one. -/
theorem hostDivf_one_one {φ : FTy} : FloatOps.hostDivf (F := Ideal) (φ := φ) (1 : EReal) 1 = 1 := by
  rw [Ideal.hostDivf_def, div_one_one]

/-! ## The weight of a count that is one -/

/-- Where the count `deg` is one, the weight "if `deg > 0` then `1 / √deg` else `z`" is one. -/
theorem dinv_eq_one {s : Shape} (hb : (⟨0, ![]⟩ : Shape).BroadcastsInDim s ![]) (deg z : FVec Ideal s .f32)
    (hdeg : ∀ i, deg i = 1) (i : s.Idx) :
    select (cmpf .ogt deg (broadcastInDim s ![] hb (constant (F := Ideal) ⟨0, ![]⟩ .f32 0x00000000#32)))
        (Host.divf (broadcastInDim s ![] hb (constant (F := Ideal) ⟨0, ![]⟩ .f32 0x3F800000#32)) (Host.sqrt deg)) z i
      = 1 := by
  show Scalar.select (FloatOps.cmpf (F := Ideal) (φ := .f32) .ogt (deg i) (Ideal.ofBits .f32 0x00000000#32))
    (FloatOps.hostDivf (F := Ideal) (φ := .f32) (Ideal.ofBits .f32 0x3F800000#32)
      (FloatOps.hostUnary (F := Ideal) (φ := .f32) .sqrt (deg i))) (z i) = 1
  rw [hdeg i, Ideal.ofBits_zero_f32, Ideal.ofBits_one_f32, cmpf_ogt_one_zero, hostSqrt_one, hostDivf_one_one]
  rfl

end Cert.Lib.UnitWeight

end
-- ==== Proof.RefConv.lean ====
/-
  One layer of the reference program when every node sends exactly one message, to itself.

  With both position vectors equal to 0, 1, …, 99999 the count of messages arriving at each node is 0 + 1 = 1, so one
  over its square root is 1 and every message's weight is 1 · 1 = 1. Every position is in range, so the masked lookup of
  the senders' rows returns the rows themselves; scaling by the weight 1 changes nothing; and adding row e into a table
  of zeros at position e, each position named once, gives the rows back. The layer is therefore "add the bias to every
  row", over the extended reals, with no condition on the entries: only 0 + x = x and x · 1 = x are used.
-/
import proofs.«141814_g14336600834353_cont_week2b_369_2_alg».proof.Proof.RefStages
import proofs.«141814_g14336600834353_cont_week2b_369_2_alg».proof.Proof.LibScatterAddRows
import proofs.«141814_g14336600834353_cont_week2b_369_2_alg».proof.Proof.LibTakeRows
import proofs.«141814_g14336600834353_cont_week2b_369_2_alg».proof.Proof.LibScatterAddPoints
import proofs.«141814_g14336600834353_cont_week2b_369_2_alg».proof.Proof.LibGatherPoints
import proofs.«141814_g14336600834353_cont_week2b_369_2_alg».proof.Proof.LibGatherStackRows
import proofs.«141814_g14336600834353_cont_week2b_369_2_alg».proof.Proof.LibIotaColumn
import proofs.«141814_g14336600834353_cont_week2b_369_2_alg».proof.Proof.LibUnitWeight
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx Cert.Lib

theorem nodes_le : (100000 : Nat) ≤ 2 ^ 31 := by norm_num

/-! ## The position columns -/

/-- The column of the positions 0 … 99999 holds, in row e, the word of e. -/
theorem col_iota (e : Fin 100000) (z : Fin 1) : col iotaV (ix2 e z) = BitVec.ofNat 32 e.val :=
  IotaColumn.col_apply (N := 100000) bcast_S100000_S100000x1_0 iotaV e z

/-- No position is negative, so counting negative positions from the end changes nothing. -/
theorem col_wrap_iota (e : Fin 100000) (z : Fin 1) : col (wrap iotaV) (ix2 e z) = BitVec.ofNat 32 e.val :=
  (IotaColumn.col_apply (N := 100000) bcast_S100000_S100000x1_0 (wrap iotaV) e z).trans
    (IotaColumn.wrap_iota_apply (N := 100000) nodes_le bcast_S_S100000 100000#32 e)

/-- Row e of the column names node n exactly when e = n. -/
theorem names_iff (e n : Fin 100000) :
    (col iotaV (ix2 e ⟨0, Nat.one_pos⟩)).toInt = (n.val : Int) ↔ e = n := by
  rw [col_iota, IotaColumn.toInt_ofNat_of_lt e.val (Nat.lt_of_lt_of_le e.isLt nodes_le)]
  constructor
  · intro h; exact Fin.ext (by exact_mod_cast h)
  · rintro rfl; rfl

/-- A sum over the column's rows of terms kept only where the row names node n is the term of row n: each node is
    named by exactly one row, its own. -/
theorem sum_names (f : Fin 100000 → EReal) (n : Fin 100000) :
    (∑ e : Fin 100000, if (col iotaV (ix2 e ⟨0, Nat.one_pos⟩)).toInt = (n.val : Int) then f e else 0) = f n := by
  rw [Finset.sum_eq_single n]
  · rw [if_pos ((names_iff n n).mpr rfl)]
  · intro e _ hne
    rw [if_neg (fun h => hne ((names_iff e n).mp h))]
  · intro h; exact absurd (Finset.mem_univ n) h

/-- A scalar word spread over any shape reads that word everywhere. -/
theorem splat_apply {T : Shape} (hb : S_.BroadcastsInDim T ![]) (w : BitVec 32) (j : T.Idx) :
    broadcastInDim T ![] hb (constant (F := Ideal) S_ .f32 w) j = Ideal.ofBits .f32 w :=
  broadcastInDim_scalar_apply hb _ j

/-! ## Every count is one, so every weight is one -/

/-- Node n is named once: its count is 0 + 1. -/
theorem deg_iota_at (n : Fin 100000) : degOf (F := Ideal) iotaV (ix1 n) = 1 := by
  unfold degOf
  refine (ScatterAddPoints.scatterAdd_points_apply (N := 100000) (E := 100000)
    scatter_S100000_S100000x1_S100000_n_0_0_1_wf _ (col iotaV) _ n).trans ?_
  rw [sum_names _ n, splat_apply, splat_apply]
  exact UnitWeight.zero_add_one_word

theorem deg_iota (i : S100000.Idx) : degOf (F := Ideal) iotaV i = 1 := by
  rw [eq_ix1 i]
  exact deg_iota_at (i 0)

/-- One over the square root of the count one is one. -/
theorem dinv_iota (i : S100000.Idx) : dinvOf (degOf (F := Ideal) iotaV) i = 1 :=
  UnitWeight.dinv_eq_one bcast_S_S100000 _ _ deg_iota i

/-- Each message's weight is the product of two values that are one wherever they are looked up. -/
theorem norm_iota_at (n : Fin 100000) : normOf (dinvOf (degOf (F := Ideal) iotaV)) iotaV iotaV (ix1 n) = 1 := by
  unfold normOf
  refine (mulf_apply _ _ _).trans ?_
  have hg : Host.gather gather_S100000_S100000x1_S100000_n_0_n_n_0_1_1 (dinvOf (degOf (F := Ideal) iotaV))
      (col (wrap iotaV)) (ix1 n) = 1 :=
    (GatherPoints.gather_points_apply (N := 100000) (R := 100000) (by norm_num)
      gather_S100000_S100000x1_S100000_n_0_n_n_0_1_1_wf _ (col (wrap iotaV)) n).trans (dinv_iota _)
  rw [hg, mul_one]

theorem norm_iota (i : S100000.Idx) : normOf (dinvOf (degOf (F := Ideal) iotaV)) iotaV iotaV i = 1 := by
  rw [eq_ix1 i]
  exact norm_iota_at (i 0)

/-! ## Every position is in range, so the lookup returns the rows -/

/-- Every row of the column of positions holds its own position, which lies in 0 … 99999. -/
theorem inRange_iota (j : S100000x1.Idx) : inRange (col (wrap iotaV)) j = 1#1 := by
  rw [eq_ix2 j]
  exact IotaColumn.inrange_apply (N := 100000) nodes_le bcast_S_S100000x1 bcast_S1x1_S100000x1_0_1 bcast_S1_S1x1_1
    99999#32 rfl (col (wrap iotaV)) (j 0) (j 1) (col_wrap_iota (j 0) (j 1))

/-- A vector over the nodes spread over the rows' entries reads, at any entry of row n, its entry n. -/
theorem bcast_node_apply {α : Type} (x : S100000.Idx → α) (a : Fin 1) (n : Fin 100000) (q : Fin 128) :
    broadcastInDim S1x100000x128 ![1] bcast_S100000_S1x100000x128_1 x (ix3 a n q) = x (ix1 n) := by
  refine broadcastInDim_apply ![1] bcast_S100000_S1x100000x128_1 x (ix3 a n q) (ix1 n) (fun c => ?_)
  match c with
  | ⟨0, _⟩ =>
    show n.val = if (100000 : Nat) = 1 then 0 else n.val
    rw [if_neg (by norm_num)]

/-- The mask of the lookup is one at every entry. -/
theorem mask_iota (a : Fin 1) (n : Fin 100000) (q : Fin 128) :
    broadcastInDim S1x100000x128 ![1] bcast_S100000_S1x100000x128_1
      (Host.reduce IntOp.andi (inRange (col (wrap iotaV))) (constantI S_ 1 1#1) reducesTo_S100000x1_S100000_d1 h_S_)
      (ix3 a n q) = 1#1 :=
  (bcast_node_apply _ a n q).trans
    (TakeRows.reduce_andi_all_one _ _ reducesTo_S100000x1_S100000_d1 h_S_ (ix1 n) inRange_iota rfl)

/-- Row n's position, read signed and clamped into 0 … 99999, is n. -/
theorem row_clamp (n : Fin 100000)
    (hlt : min (col (wrap iotaV) (ix2 n ⟨0, Nat.one_pos⟩)).toInt.toNat (100000 - 1) < 100000) :
    (⟨min (col (wrap iotaV) (ix2 n ⟨0, Nat.one_pos⟩)).toInt.toNat (100000 - 1), hlt⟩ : Fin 100000) = n :=
  Fin.ext (by
    show min (col (wrap iotaV) (ix2 n ⟨0, Nat.one_pos⟩)).toInt.toNat (100000 - 1) = n.val
    rw [col_wrap_iota]
    exact IotaColumn.clamp_ofNat n.val 100000 n.isLt nodes_le)

/-- The masked lookup of the senders' rows returns the rows. -/
theorem take_iota (h : FVec Ideal S1x100000x128 .f32) (a : Fin 1) (n : Fin 100000) (q : Fin 128) :
    takeOf (F := Ideal) h iotaV (ix3 a n q) = h (ix3 a n q) := by
  unfold takeOf
  refine (select_apply _ _ _ _).trans ?_
  rw [mask_iota a n q, select_one]
  refine (GatherStackRows.gather_stack_rows_apply (N := 100000) (R := 100000) (C := 128) (by norm_num)
    gather_S1x100000x128_S100000x1_S1x100000x128_02_1_n_n_1_1_11128_wf h (col (wrap iotaV)) a n q).trans ?_
  exact congrArg (fun r => h (ix3 a r q)) (row_clamp n _)

/-! ## The layer -/

/-- A vector over the nodes kept as a column of a one-layer stack and spread along the rows reads, at any entry of
    row n, its entry n. -/
theorem bcast_weight_apply {α : Type} (x : S100000.Idx → α) (a : Fin 1) (n : Fin 100000) (q : Fin 128) :
    broadcastInDim S1x100000x128 ![0, 1, 2] bcast_S1x100000x1_S1x100000x128_0_1_2
      (broadcastInDim S1x100000x1 ![1] bcast_S100000_S1x100000x1_1 x) (ix3 a n q) = x (ix1 n) := by
  have ha : a.val = 0 := by omega
  refine (broadcastInDim_apply ![0, 1, 2] bcast_S1x100000x1_S1x100000x128_0_1_2
    (broadcastInDim S1x100000x1 ![1] bcast_S100000_S1x100000x1_1 x) (ix3 a n q) (ix3 a n (0 : Fin 1)) (fun c => ?_)).trans ?_
  · match c with
    | ⟨0, _⟩ =>
      show a.val = if (1 : Nat) = 1 then 0 else a.val
      rw [if_pos rfl, ha]
    | ⟨1, _⟩ =>
      show n.val = if (100000 : Nat) = 1 then 0 else n.val
      rw [if_neg (by norm_num)]
    | ⟨2, _⟩ =>
      show (0 : Nat) = if (1 : Nat) = 1 then 0 else q.val
      rw [if_pos rfl]
  · refine broadcastInDim_apply ![1] bcast_S100000_S1x100000x1_1 x (ix3 a n (0 : Fin 1)) (ix1 n) (fun c => ?_)
    match c with
    | ⟨0, _⟩ =>
      show n.val = if (100000 : Nat) = 1 then 0 else n.val
      rw [if_neg (by norm_num)]

/-- The weights spread along the rows read one everywhere. -/
theorem spread_norm (a : Fin 1) (n : Fin 100000) (q : Fin 128) :
    broadcastInDim S1x100000x128 ![0, 1, 2] bcast_S1x100000x1_S1x100000x128_0_1_2
      (broadcastInDim S1x100000x1 ![1] bcast_S100000_S1x100000x1_1
        (normOf (dinvOf (degOf (F := Ideal) iotaV)) iotaV iotaV)) (ix3 a n q) = 1 :=
  (bcast_weight_apply _ a n q).trans (norm_iota _)

/-- The bias spread over the rows reads, at column q of any row, its entry q. -/
theorem bias_apply (b : FVec Ideal S128 .f32) (a : Fin 1) (n : Fin 100000) (q : Fin 128) :
    broadcastInDim S1x100000x128 ![0, 1, 2] bcast_S1x1x128_S1x100000x128_0_1_2
      (broadcastInDim S1x1x128 ![2] bcast_S128_S1x1x128_2 b) (ix3 a n q) = b (ix1 q) := by
  refine (broadcastInDim_apply ![0, 1, 2] bcast_S1x1x128_S1x100000x128_0_1_2 _ (ix3 a n q)
    (ix3 (0 : Fin 1) (0 : Fin 1) q) (fun c => ?_)).trans ?_
  · match c with
    | ⟨0, _⟩ =>
      show (0 : Nat) = if (1 : Nat) = 1 then 0 else a.val
      rw [if_pos rfl]
    | ⟨1, _⟩ =>
      show (0 : Nat) = if (1 : Nat) = 1 then 0 else n.val
      rw [if_pos rfl]
    | ⟨2, _⟩ =>
      show q.val = if (128 : Nat) = 1 then 0 else q.val
      rw [if_neg (by norm_num)]
  · refine broadcastInDim_apply ![2] bcast_S128_S1x1x128_2 b (ix3 (0 : Fin 1) (0 : Fin 1) q) (ix1 q) (fun c => ?_)
    match c with
    | ⟨0, _⟩ =>
      show q.val = if (128 : Nat) = 1 then 0 else q.val
      rw [if_neg (by norm_num)]

/-- The rows scaled by the weights and laid out as a table read, at (n, q), the row entry itself. -/
theorem scaled_apply (h : FVec Ideal S1x100000x128 .f32) (n : Fin 100000) (q : Fin 128) :
    shapeCast S100000x128
      (mulf (takeOf h iotaV)
        (broadcastInDim S1x100000x128 ![0, 1, 2] bcast_S1x100000x1_S1x100000x128_0_1_2
          (broadcastInDim S1x100000x1 ![1] bcast_S100000_S1x100000x1_1
            (normOf (dinvOf (degOf (F := Ideal) iotaV)) iotaV iotaV))))
      shapeCasts_S1x100000x128_S100000x128 (ix2 n q) = h (ix3 (0 : Fin 1) n q) := by
  refine (shapeCast_apply _ shapeCasts_S1x100000x128_S100000x128 (ix2 n q) (ix3 (0 : Fin 1) n q) ?_).trans ?_
  · rw [Shape.rowMajor_val_three, Shape.rowMajor_val_two]
    show (0 * 100000 + n.val) * 128 + q.val = n.val * 128 + q.val
    rw [Nat.zero_mul, Nat.zero_add]
  · refine (mulf_apply _ _ _).trans ?_
    rw [take_iota h 0 n q, spread_norm 0 n q, mul_one]

/-- A table over nodes and columns kept as a one-layer stack reads, at (a, n, q), its entry (n, q). -/
theorem bcast_table_apply {α : Type} (x : S100000x128.Idx → α) (a : Fin 1) (n : Fin 100000) (q : Fin 128) :
    broadcastInDim S1x100000x128 ![1, 2] bcast_S100000x128_S1x100000x128_1_2 x (ix3 a n q) = x (ix2 n q) := by
  refine broadcastInDim_apply ![1, 2] bcast_S100000x128_S1x100000x128_1_2 x (ix3 a n q) (ix2 n q) (fun c => ?_)
  match c with
  | ⟨0, _⟩ =>
    show n.val = if (100000 : Nat) = 1 then 0 else n.val
    rw [if_neg (by norm_num)]
  | ⟨1, _⟩ =>
    show q.val = if (128 : Nat) = 1 then 0 else q.val
    rw [if_neg (by norm_num)]

/-- ONE LAYER WITH SELF-MESSAGES: the rows plus the bias. -/
theorem convWith_self_loops (h : FVec Ideal S1x100000x128 .f32) (b : FVec Ideal S128 .f32) (a : Fin 1) (n : Fin 100000)
    (q : Fin 128) :
    convWith (F := Ideal) (degOf iotaV) h iotaV iotaV b (ix3 a n q) = h (ix3 a n q) + b (ix1 q) := by
  have ha : a = 0 := Subsingleton.elim a 0
  subst ha
  unfold convWith
  refine (addf_apply _ _ _).trans ?_
  refine congrArg₂ (· + ·) ?_ (bias_apply b 0 n q)
  refine (bcast_table_apply _ 0 n q).trans ?_
  refine (ScatterAddRows.scatterAdd_rows_apply (N := 100000) (E := 100000) (C := 128)
    scatter_S100000x128_S100000x1_S100000x128_1_0_0_1_wf _ (col iotaV) _ n q).trans ?_
  rw [sum_names _ n, splat_apply, Ideal.ofBits_zero_f32, zero_add]
  exact scaled_apply h n q

end Cert.ReferenceIdeal.Hand

end
-- ==== Proof.LibStackDot.lean ====
/-
  A stack of one N × K table times a K × C matrix, read at an entry.

  The product contracts the table's last axis with the matrix's first; the stack axis and the rows pass through. Over
  the extended reals the entry at (a, n, q) is the sum over k of the table's entry (a, n, k) times the matrix's entry
  (k, q) — the contraction index set has one axis of extent K, and the sum over it is re-indexed by its one coordinate.
-/
import Idealize.ShloMosaic.Lib.ValueIdx
import Idealize.ShloMosaic.PureOps.Ideal.Laws

noncomputable section

open scoped BigOperators

namespace Cert.Lib.StackDot

open Idealize.ShloMosaic Idealize.ShloMosaic.ValueIdx

/-- The dimension numbers of the product: contract axis 2 of the stack [1, N, K] with axis 0 of the matrix [K, C]; the
    stack's axes 0 and 1 and the matrix's axis 1 are free; nothing is batched. -/
abbrev stackDot (N K C : Nat)
    (wf : DotDims.WF ⟨3, ![1, N, K]⟩ ⟨2, ![K, C]⟩ ⟨3, ![1, N, C]⟩ [2] [0] [0, 1] [1] [] []) :
    DotDims ⟨3, ![1, N, K]⟩ ⟨2, ![K, C]⟩ ⟨3, ![1, N, C]⟩ where
  lhsContracting := [2]
  rhsContracting := [0]
  lhsNonContracting := [0, 1]
  rhsNonContracting := [1]
  lhsBatch := []
  rhsBatch := []
  wf := wf

section
variable {N K C : Nat} (wf : DotDims.WF ⟨3, ![1, N, K]⟩ ⟨2, ![K, C]⟩ ⟨3, ![1, N, C]⟩ [2] [0] [0, 1] [1] [] [])
  (i : (⟨3, ![1, N, C]⟩ : Shape).Idx) (p : (stackDot N K C wf).contr.Idx)

/-- The table's stack coordinate is the result's. -/
theorem lhs_0 : ((stackDot N K C wf).lhsIdx i p 0).val = (i 0).val := by
  unfold DotDims.lhsIdx
  rw [dif_neg (show ¬(0 : Fin (⟨3, ![1, N, K]⟩ : Shape).rank) ∈ (stackDot N K C wf).lhsBatch from List.not_mem_nil),
    dif_pos (show (0 : Fin (⟨3, ![1, N, K]⟩ : Shape).rank) ∈ (stackDot N K C wf).lhsNonContracting by simp)]
  rfl

/-- The table's row is the result's. -/
theorem lhs_1 : ((stackDot N K C wf).lhsIdx i p 1).val = (i 1).val := by
  unfold DotDims.lhsIdx
  rw [dif_neg (show ¬(1 : Fin (⟨3, ![1, N, K]⟩ : Shape).rank) ∈ (stackDot N K C wf).lhsBatch from List.not_mem_nil),
    dif_pos (show (1 : Fin (⟨3, ![1, N, K]⟩ : Shape).rank) ∈ (stackDot N K C wf).lhsNonContracting by simp)]
  rfl

/-- The table's column is the contraction position. -/
theorem lhs_2 : ((stackDot N K C wf).lhsIdx i p 2).val = (p ⟨0, (show 0 < (stackDot N K C wf).contr.rank from Nat.one_pos)⟩).val :=
  (stackDot N K C wf).lhsIdx_val_of_single rfl i p

/-- The matrix's row is the contraction position. -/
theorem rhs_0 : ((stackDot N K C wf).rhsIdx i p 0).val = (p ⟨0, (show 0 < (stackDot N K C wf).contr.rank from Nat.one_pos)⟩).val :=
  (stackDot N K C wf).rhsIdx_val_of_single rfl i p

/-- The matrix's column is the result's. -/
theorem rhs_1 : ((stackDot N K C wf).rhsIdx i p 1).val = (i 2).val := by
  unfold DotDims.rhsIdx
  rw [dif_neg (show ¬(1 : Fin (⟨2, ![K, C]⟩ : Shape).rank) ∈ (stackDot N K C wf).rhsBatch from List.not_mem_nil),
    dif_pos (show (1 : Fin (⟨2, ![K, C]⟩ : Shape).rank) ∈ (stackDot N K C wf).rhsNonContracting by simp)]
  rfl

end

/-- THE PRODUCT READ AT (a, n, q): the sum over k of table (a, n, k) times matrix (k, q). -/
theorem dotGeneral_stack_apply {N K C : Nat} {φ₁ φ₂ : FTy}
    (wf : DotDims.WF ⟨3, ![1, N, K]⟩ ⟨2, ![K, C]⟩ ⟨3, ![1, N, C]⟩ [2] [0] [0, 1] [1] [] [])
    (prec : Option ContractPrecision) (l : FVec Ideal ⟨3, ![1, N, K]⟩ φ₁) (r : FVec Ideal ⟨2, ![K, C]⟩ φ₂)
    (a : Fin 1) (n : Fin N) (q : Fin C) :
    Host.dotGeneral (stackDot N K C wf) prec l r (ix3 a n q) = ∑ k : Fin K, l (ix3 a n k) * r (ix2 k q) := by
  simp only [Host.dotGeneral]
  rw [Ideal.dotGeneral_apply, ← Equiv.sum_comp (contrEquiv1 (stackDot N K C wf) K rfl rfl).symm]
  refine Finset.sum_congr rfl fun k _ => ?_
  have hk := contrEquiv1_symm_val (stackDot N K C wf) K rfl rfl k
  have el : (stackDot N K C wf).lhsIdx (ix3 a n q) ((contrEquiv1 (stackDot N K C wf) K rfl rfl).symm k) = ix3 a n k :=
    funext fun b => Fin.ext (by
      match b with
      | ⟨0, _⟩ => exact lhs_0 wf _ _
      | ⟨1, _⟩ => exact lhs_1 wf _ _
      | ⟨2, _⟩ => exact (lhs_2 wf _ _).trans hk)
  have er : (stackDot N K C wf).rhsIdx (ix3 a n q) ((contrEquiv1 (stackDot N K C wf) K rfl rfl).symm k) = ix2 k q :=
    funext fun b => Fin.ext (by
      match b with
      | ⟨0, _⟩ => exact (rhs_0 wf _ _).trans hk
      | ⟨1, _⟩ => exact rhs_1 wf _ _)
  rw [el, er]

end Cert.Lib.StackDot

end
-- ==== Proof.RefValue.lean ====
/-
  The reference program's result is the two-layer function of the specification.

  Each of the reference's layers is, by the layer theorem, "project the rows, then add the bias to every row"; a
  projection of a stack of one table by a matrix is, entry by entry, the inner product of a row with a column. Between
  the layers every entry is replaced by its maximum with the zero word. Reading the result at (a, n, q) and unfolding
  these three facts twice gives the specification's entry: the second affine map of the first affine map of input row
  n cut off below at zero. The layer theorem enters as a hypothesis, so that this module stands beside its proof.
-/
import proofs.«141814_g14336600834353_cont_week2b_369_2_alg».proof.Proof.RefStages
import proofs.«141814_g14336600834353_cont_week2b_369_2_alg».proof.Proof.LibStackDot
import proofs.«141814_g14336600834353_cont_week2b_369_2_alg».proof.Proof.TwoLayerSpec
import Idealize.ShloMosaic.Lib.ValueIdx
import Idealize.ShloMosaic.Lib.IdealHost
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx Cert.Lib

/-- The first projection's dimension numbers are those of a stack of one 100000 × 256 table times a 256 × 128 matrix. -/
theorem dot1_eq : dot_S1x100000x256_S256x128_S1x100000x128_2_0_01_1_n_n
    = StackDot.stackDot 100000 256 128 dot_S1x100000x256_S256x128_S1x100000x128_2_0_01_1_n_n_wf := rfl

/-- The second projection's are those of a stack of one 100000 × 128 table times a 128 × 128 matrix. -/
theorem dot2_eq : dot_S1x100000x128_S128x128_S1x100000x128_2_0_01_1_n_n
    = StackDot.stackDot 100000 128 128 dot_S1x100000x128_S128x128_S1x100000x128_2_0_01_1_n_n_wf := rfl

/-- The zero word spread over the layer's shape reads that word everywhere. -/
theorem zero_spread_apply (j : S1x100000x128.Idx) :
    broadcastInDim S1x100000x128 ![] bcast_S_S1x100000x128 (constant (F := Ideal) S_ .f32 0x00000000#32) j
      = Ideal.ofBits .f32 0x00000000#32 :=
  broadcastInDim_scalar_apply bcast_S_S1x100000x128 _ j

section
variable (hlayer : ∀ (h : FVec Ideal S1x100000x128 .f32) (b : FVec Ideal S128 .f32) (a : Fin 1) (n : Fin 100000) (q : Fin 128),
  convWith (F := Ideal) (degOf iotaV) h iotaV iotaV b (ix3 a n q) = h (ix3 a n q) + b (ix1 q))
include hlayer

/-- The first layer's output cut off below at zero, at (a, n, k), is the specification's hidden entry (n, k). -/
theorem hidden_apply (x : FVec Ideal S1x100000x256 .f32) (W1 : FVec Ideal S256x128 .f32) (b1 : FVec Ideal S128 .f32)
    (a : Fin 1) (n : Fin 100000) (k : Fin 128) :
    maximumf
        (convWith (F := Ideal) (degOf iotaV)
          (Host.dotGeneral dot_S1x100000x256_S256x128_S1x100000x128_2_0_01_1_n_n none x W1) iotaV iotaV b1)
        (broadcastInDim S1x100000x128 ![] bcast_S_S1x100000x128 (constant (F := Ideal) S_ .f32 0x00000000#32)) (ix3 a n k)
      = Cert.TwoLayer.hiddenAt x W1 b1 n k := by
  have ha : a = 0 := Subsingleton.elim _ _
  subst ha
  rw [maximumf_apply, hlayer, zero_spread_apply, dot1_eq, StackDot.dotGeneral_stack_apply]
  rfl

/-- The reference's result is the specification's output. -/
theorem refOut_eq_of (x : FVec Ideal S1x100000x256 .f32) (W1 : FVec Ideal S256x128 .f32) (b1 : FVec Ideal S128 .f32)
    (W2 : FVec Ideal S128x128 .f32) (b2 : FVec Ideal S128 .f32) :
    refOut (F := Ideal) x W1 b1 W2 b2 = Cert.TwoLayer.out x W1 b1 W2 b2 := by
  funext i
  obtain ⟨a, n, q, rfl⟩ : ∃ (a : Fin 1) (n : Fin 100000) (q : Fin 128), i = ix3 a n q := ⟨i 0, i 1, i 2, eq_ix3 i⟩
  rw [Cert.TwoLayer.out_ix3]
  unfold refOut hidden2
  rw [hlayer, dot2_eq, StackDot.dotGeneral_stack_apply]
  unfold Cert.TwoLayer.outAt Cert.TwoLayer.affineAt
  refine congrArg (· + b2 (ix1 q)) (Finset.sum_congr rfl fun k _ => ?_)
  rw [hidden_apply hlayer]

end

end Cert.ReferenceIdeal.Hand

end
-- ==== Proof.lean ====
/-
  A fused two-layer row map against a graph convolution over self-loops only.

  The kernel sends every row of a 100000 × 256 table through x ↦ max(x·W1 + b1, 0)·W2 + b2, in blocks of 2000 rows. The
  reference program computes two graph-convolution layers on a graph whose only edges are the 100000 self-loops: it
  projects the rows, counts each node's incoming messages (one), weights every message by the product of one over the
  square roots of its two ends' counts (one), looks up the senders' rows (the rows themselves), adds the weighted rows
  into zeros at the receivers (the rows again) and adds the bias; a maximum with zero sits between the layers. Over the
  extended reals both programs therefore end with the same array: entry (n, q) is the second affine map applied to the
  first affine map of row n cut off below at zero (TwoLayerSpec). The laws used are 0 + x = x, x · 1 = x, the square
  root of 1 and 1/1; none needs the entries to be finite, so the precondition is never opened.

  The kernel's side: the generated frame run names the output array block by block; each block is the payload of the
  corresponding 2000 input rows, the payload at an entry is the specification's entry, the 50 blocks cover the table, and
  the last reshape re-labels the table as a stack of one (KernelPayload, KernelHostArrays, KernelBlocks, KernelValue).
  The reference's side: its entry function is its list of 151 host operations run in order (RefOpsTable, RefRun); the
  result buffer after them is the two-layer function spelt in the program's own operations (RefStages, RefRead); one
  layer over self-loops is "add the bias to every row" (RefConv, over the general lemmas in the Lib files); and so the
  result is the specification's array (RefValue). The idealized kernel is the kernel's own text read over the extended
  reals: no operation of it was rewritten, and there is nothing to preserve.
-/
import proofs.«141814_g14336600834353_cont_week2b_369_2_alg».proof.Defs
import proofs.«141814_g14336600834353_cont_week2b_369_2_alg».proof.Proof.Gen.Kernel
import proofs.«141814_g14336600834353_cont_week2b_369_2_alg».proof.Proof.Gen.Kernel.Skeleton
import proofs.«141814_g14336600834353_cont_week2b_369_2_alg».proof.Proof.Gen.Kernel.Launch
import proofs.«141814_g14336600834353_cont_week2b_369_2_alg».proof.Proof.Gen.Kernel.Points
import proofs.«141814_g14336600834353_cont_week2b_369_2_alg».proof.Proof.Gen.Kernel.Frame
import proofs.«141814_g14336600834353_cont_week2b_369_2_alg».proof.Proof.Gen.KernelIdeal
import proofs.«141814_g14336600834353_cont_week2b_369_2_alg».proof.Proof.Gen.KernelIdeal.Skeleton
import proofs.«141814_g14336600834353_cont_week2b_369_2_alg».proof.Proof.Gen.KernelIdeal.Launch
import proofs.«141814_g14336600834353_cont_week2b_369_2_alg».proof.Proof.Gen.KernelIdeal.Points
import proofs.«141814_g14336600834353_cont_week2b_369_2_alg».proof.Proof.Gen.KernelIdeal.Frame
import proofs.«141814_g14336600834353_cont_week2b_369_2_alg».proof.Proof.Gen.ReferenceIdeal
import proofs.«141814_g14336600834353_cont_week2b_369_2_alg».proof.Proof.Gen.Pre_finite_inputs
import proofs.«141814_g14336600834353_cont_week2b_369_2_alg».proof.Proof.KernelValue
import proofs.«141814_g14336600834353_cont_week2b_369_2_alg».proof.Proof.RefRun
import proofs.«141814_g14336600834353_cont_week2b_369_2_alg».proof.Proof.RefRead
import proofs.«141814_g14336600834353_cont_week2b_369_2_alg».proof.Proof.RefConv
import proofs.«141814_g14336600834353_cont_week2b_369_2_alg».proof.Proof.RefValue
import Idealize.ShloMosaic.Adequacy
import Idealize.ShloMosaic.Init

noncomputable section

namespace Cert.Proof

open Idealize.ShloMosaic Idealize.ShloMosaic.TcCoe Idealize.SL.Sem

/-- The reference program, over the extended reals, from any memory with zero counters: every weakly fair execution
    terminates, the result buffer holds the specification's array of the arguments' contents, and the arguments are
    unchanged. -/
theorem reference_run
    (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v80)
            = Cert.TwoLayer.out
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run (Cert.ReferenceIdeal.defs (F := Ideal)) _ _).mono
    (fun _ h c =>
      ⟨(h c Cert.ReferenceIdeal.main_v80).trans
          ((Cert.ReferenceIdeal.Hand.result_eq _).trans
            (Cert.ReferenceIdeal.Hand.refOut_eq_of Cert.ReferenceIdeal.Hand.convWith_self_loops _ _ _ _ _)),
        (h c Cert.ReferenceIdeal.main_arg0).trans (Cert.ReferenceIdeal.Hand.arg0_eq _),
        (h c Cert.ReferenceIdeal.main_arg1).trans (Cert.ReferenceIdeal.Hand.arg1_eq _),
        (h c Cert.ReferenceIdeal.main_arg2).trans (Cert.ReferenceIdeal.Hand.arg2_eq _),
        (h c Cert.ReferenceIdeal.main_arg3).trans (Cert.ReferenceIdeal.Hand.arg3_eq _),
        (h c Cert.ReferenceIdeal.main_arg4).trans (Cert.ReferenceIdeal.Hand.arg4_eq _)⟩)
    (Cert.ReferenceIdeal.Hand.run_main (F := Ideal) m ρ)

/-- The kernel as printed runs and leaves its arguments as they were: the generated frame. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run, the result forgotten. -/
theorem frame_reference_ideal : Cert.frame_ReferenceIdeal := fun m ρ _ =>
  (θ_run (Cert.ReferenceIdeal.defs (F := Ideal)) _ _).mono (fun _ h c => (h c).2) (reference_run m ρ)

/-- No operation of the kernel was rewritten for the reading over the extended reals. -/
theorem preserves : Cert.preserves_Kernel_KernelIdeal := trivial

/-- From memories that agree on the five arguments both programs end with the specification's array of those
    arguments in their result buffers. -/
theorem algebraic : Cert.algebraic_KernelIdeal_ReferenceIdeal := by
  intro m ρ m' ρ' _ hagree
  refine ⟨_, Cert.KernelIdeal.Hand.run m ρ, ?_⟩
  refine (θ_run (Cert.ReferenceIdeal.defs (F := Ideal)) _ _).mono (fun _ h c => ⟨(h c).1.trans ?_, (h c).2⟩)
    (reference_run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
